-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S512x512 : Shape := ⟨2, ![512, 512]⟩
abbrev S512 : Shape := ⟨1, ![512]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x512 .f32) (main_arg8 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S4x4096x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_v13 main_v16
-- ==== Kernel.lean ====
abbrev S4x4096x512 : Shape := ⟨3, ![4, 4096, 512]⟩
abbrev S512x512 : Shape := ⟨2, ![512, 512]⟩
abbrev S512 : Shape := ⟨1, ![512]⟩
abbrev S16384x512 : Shape := ⟨2, ![16384, 512]⟩
abbrev S1x512 : Shape := ⟨2, ![1, 512]⟩
abbrev S2048x512 : Shape := ⟨2, ![2048, 512]⟩
abbrev S1x512x512 : Shape := ⟨3, ![1, 512, 512]⟩
abbrev S1x4096x512 : Shape := ⟨3, ![1, 4096, 512]⟩
abbrev S512x1 : Shape := ⟨2, ![512, 1]⟩
abbrev S1x1024x512 : Shape := ⟨3, ![1, 1024, 512]⟩
abbrev S1024x512 : Shape := ⟨2, ![1024, 512]⟩
abbrev S512x1024 : Shape := ⟨2, ![512, 1024]⟩

abbrev nBuf : Space → Nat
  | .hbm => 23
  | .vmem => 23
  | .smem => 0
  | _ => 0

abbrev bufTy : (tb : Table) → Fin (tcTables nBuf tb) → BufTy
  | .hbm, ⟨0, _⟩ => ⟨S4x4096x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S16384x512, .f32⟩
  | .hbm, ⟨10, _⟩ => ⟨S512x512, .bf16⟩
  | .hbm, ⟨11, _⟩ => ⟨S512x512, .bf16⟩
  | .hbm, ⟨12, _⟩ => ⟨S512x512, .bf16⟩
  | .hbm, ⟨13, _⟩ => ⟨S512x512, .bf16⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S16384x512, .bf16⟩
  | .hbm, ⟨19, _⟩ => ⟨S16384x512, .bf16⟩
  | .hbm, ⟨20, _⟩ => ⟨S4x4096x512, .bf16⟩
  | .hbm, ⟨21, _⟩ => ⟨S4x4096x512, .bf16⟩
  | .hbm, ⟨22, _⟩ => ⟨S4x4096x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S1x512, .f32⟩
  | .local _ .vmem, ⟨4, _⟩ => ⟨S512x512, .bf16⟩
  | .local _ .vmem, ⟨5, _⟩ => ⟨S1x512, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S1x512x512, .f32⟩
  | .local _ .vmem, ⟨11, _⟩ => ⟨S1x512x512, .f32⟩
  | .local _ .vmem, ⟨12, _⟩ => ⟨S512x512, .bf16⟩
  | .local _ .vmem, ⟨13, _⟩ => ⟨S1x512, .f32⟩
  | .local _ .vmem, ⟨14, _⟩ => ⟨S1x4096x512, .bf16⟩
  | .local _ .vmem, ⟨15, _⟩ => ⟨S1x4096x512, .bf16⟩
  | .local _ .vmem, ⟨16, _⟩ => ⟨S512x512, .bf16⟩
  | .local _ .vmem, ⟨17, _⟩ => ⟨S1x512, .f32⟩
  | .local _ .vmem, ⟨18, _⟩ => ⟨S1x512x512, .f32⟩
  | .local _ .vmem, ⟨19, _⟩ => ⟨S1x512x512, .f32⟩
  | .local _ .vmem, ⟨20, _⟩ => ⟨S512x1, .f32⟩
  | .local _ .vmem, ⟨21, _⟩ => ⟨S512x1, .f32⟩
  | .local _ .vmem, ⟨22, _⟩ => ⟨S512x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 8], ![false, false]⟩

def k1_mult1 : BitVec 32 :=
  let c0_i32 : BitVec 32 := 0#32
  let c1024_i32 : BitVec 32 := 1024#32
  let v23 : BitVec 32 := Scalar.muli c0_i32 c1024_i32
  v23
def k1_off1 (c0_i32 : BitVec 32) : Fin 3 → Nat :=
  let c0_15 : Index := 0#32
  let c1024_i32 : BitVec 32 := 1024#32
  let v23 : BitVec 32 := Scalar.muli c0_i32 c1024_i32
  let v24 : BitVec 32 := v23
  let v25 : Index := Scalar.indexCast v24
  let c0_16 : Index := 0#32
  ![0, v25.toNat, 0]
def k1_mult2 : BitVec 32 :=
  let c1_i32 : BitVec 32 := 1#32
  let c1024_i32_35 : BitVec 32 := 1024#32
  let v61 : BitVec 32 := Scalar.muli c1_i32 c1024_i32_35
  v61
def k1_mult3 : BitVec 32 :=
  let c2_i32 : BitVec 32 := 2#32
  let c1024_i32_56 : BitVec 32 := 1024#32
  let v99 : BitVec 32 := Scalar.muli c2_i32 c1024_i32_56
  v99
def k1_mult4 : BitVec 32 :=
  let c3_i32 : BitVec 32 := 3#32
  let c1024_i32_77 : BitVec 32 := 1024#32
  let v137 : BitVec 32 := Scalar.muli c3_i32 c1024_i32_77
  v137
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x4096x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

abbrev stage1_4 : Fin 1 → Memref sig .tc .vmem S1x4096x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  shapeCasts_S4x4096x512_S16384x512 : S4x4096x512.ShapeCasts S16384x512
  bitsLt_bf16_f32 : FTy.bits .bf16 < FTy.bits .f32
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  packedbf16_S2048x512_S2048x512_0_0 : (Rect.unit (s := S2048x512) ![0, 0] S2048x512.size inb_S2048x512_S2048x512_0_0).PackedRows (EltTy.packing .bf16)
  shapeCasts_S16384x512_S4x4096x512 : S16384x512.ShapeCasts S4x4096x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  broadcasts_S1x512_S512x512 : S1x512.Broadcasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S1x1024x512 : 0 < S1x1024x512.numel
  shapeCasts_S1x1024x512_S1024x512 : S1x1024x512.ShapeCasts S1024x512
  reduces_S512x1024_S512 : S512x1024.Reduces [1] S512
  shapeCasts_S512_S512x1 : S512.ShapeCasts S512x1
  broadcasts_S512x1_S512x1024 : S512x1.Broadcasts S512x1024
  broadcasts_S512x1_S512x512 : S512x1.Broadcasts S512x512
  shapeCasts_S512x512_S1x512x512 : S512x512.ShapeCasts S1x512x512
  dot_S2048x512_S512x512_S2048x512_1_0_0_1_n_n_wf : DotDims.WF S2048x512 S512x512 S2048x512 [1] [0] [0] [1] [] []
  dot_S512x512_S512x512_S512x512_1_0_0_1_n_n_wf : DotDims.WF S512x512 S512x512 S512x512 [1] [0] [0] [1] [] []
  dot_S512x512_S1024x512_S512x1024_1_1_0_0_n_n_wf : DotDims.WF S512x512 S1024x512 S512x1024 [1] [1] [0] [0] [] []
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S16384x512.size a
  hwx0_5 : ∀ i : grid0.Coords, EltTy.bits .bf16 = 32 ∨ (Rect.block (s := S16384x512) S2048x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x512.size a ≤ S16384x512.size a
  hwx0_6 : ∀ i : grid0.Coords, EltTy.bits .bf16 = 32 ∨ (Rect.block (s := S16384x512) S2048x512.size (cc0_transform_6 i) (hinb0_6 i)).WholeWords (EltTy.packing .bf16)
  hrank1 : 0 < grid1.rank
  k1_mult1_dvd : 1024 ∣ k1_mult1.toNat
  k1_off1_inb : ∀ (r : Fin 4), ∀ a, (k1_off1 (BitVec.ofNat 32 r.val)) a + S1x1024x512.size a ≤ S1x4096x512.size a
  k1_mult2_dvd : 1024 ∣ k1_mult2.toNat
  k1_mult3_dvd : 1024 ∣ k1_mult3.toNat
  k1_mult4_dvd : 1024 ∣ k1_mult4.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S4x4096x512.size a
  hwx1_0 : ∀ i : grid1.Coords, EltTy.bits .f32 = 32 ∨ (Rect.block (s := S4x4096x512) S1x512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096x512.size a ≤ S4x4096x512.size a
  hwx1_3 : ∀ i : grid1.Coords, EltTy.bits .bf16 = 32 ∨ (Rect.block (s := S4x4096x512) S1x4096x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096x512.size a ≤ S4x4096x512.size a
  hwx1_4 : ∀ i : grid1.Coords, EltTy.bits .bf16 = 32 ∨ (Rect.block (s := S4x4096x512) S1x4096x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .bf16 = 32 ∨ (Rect.block (s := S512x512) S512x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512x512.size a ≤ S4x4096x512.size a
  hwx1_7 : ∀ i : grid1.Coords, EltTy.bits .f32 = 32 ∨ (Rect.block (s := S4x4096x512) S1x512x512.size (cc1_transform_7 i) (hinb1_7 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9_0) S2048x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_1) S2048x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x4096x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x4096x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12) S1x512x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4x4096x512 : Shape := ⟨3, ![4, 4096, 512]⟩
abbrev S512x512 : Shape := ⟨2, ![512, 512]⟩
abbrev S512 : Shape := ⟨1, ![512]⟩
abbrev S1x1x512 : Shape := ⟨3, ![1, 1, 512]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S4x4096x512, .f32⟩
  | .hbm, ⟨10, _⟩ => ⟨S1x1x512, .f32⟩
  | .hbm, ⟨11, _⟩ => ⟨S4x4096x512, .f32⟩
  | .hbm, ⟨12, _⟩ => ⟨S4x4096x512, .f32⟩
  | .hbm, ⟨13, _⟩ => ⟨S4x4096x512, .f32⟩
  | .hbm, ⟨14, _⟩ => ⟨S1x1x512, .f32⟩
  | .hbm, ⟨15, _⟩ => ⟨S4x4096x512, .f32⟩
  | .hbm, ⟨16, _⟩ => ⟨S4x4096x512, .f32⟩
  | .hbm, ⟨17, _⟩ => ⟨S4x4096x512, .f32⟩
  | .hbm, ⟨18, _⟩ => ⟨S1x1x512, .f32⟩
  | .hbm, ⟨19, _⟩ => ⟨S4x4096x512, .f32⟩
  | .hbm, ⟨20, _⟩ => ⟨S4x4096x512, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S4x4096, .f32⟩
  | .hbm, ⟨27, _⟩ => ⟨S4x4096x1, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S4x4096x4096, .f32⟩
  | .hbm, ⟨35, _⟩ => ⟨S4x4096x4096, .f32⟩
  | .hbm, ⟨36, _⟩ => ⟨S4x4096x512, .f32⟩
  | .hbm, ⟨37, _⟩ => ⟨S4x4096x512, .f32⟩
  | .hbm, ⟨38, _⟩ => ⟨S1x1x512, .f32⟩
  | .hbm, ⟨39, _⟩ => ⟨S4x4096x512, .f32⟩
  | .hbm, ⟨40, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x512_S512x512_S4x4096x512_2_0_01_1_n_n_wf : DotDims.WF S4x4096x512 S512x512 S4x4096x512 [2] [0] [0, 1] [1] [] []
  dot_S4x4096x512_S4x4096x512_S4x4096x4096_2_2_1_1_0_0_wf : DotDims.WF S4x4096x512 S4x4096x512 S4x4096x4096 [2] [2] [1] [1] [0] [0]
  dot_S4x4096x4096_S4x4096x512_S4x4096x512_2_1_1_2_0_0_wf : DotDims.WF S4x4096x4096 S4x4096x512 S4x4096x512 [2] [1] [1] [2] [0] [0]

variable [Facts₀]

def dot_S4x4096x512_S512x512_S4x4096x512_2_0_01_1_n_n : DotDims S4x4096x512 S512x512 S4x4096x512 where
  lhsContracting := [2]
  rhsContracting := [0]
  lhsNonContracting := [0, 1]
  rhsNonContracting := [1]
  lhsBatch := []
  rhsBatch := []
  wf := dot_S4x4096x512_S512x512_S4x4096x512_2_0_01_1_n_n_wf
def dot_S4x4096x512_S4x4096x512_S4x4096x4096_2_2_1_1_0_0 : DotDims S4x4096x512 S4x4096x512 S4x4096x4096 where
  lhsContracting := [2]
  rhsContracting := [2]
  lhsNonContracting := [1]
  rhsNonContracting := [1]
  lhsBatch := [0]
  rhsBatch := [0]
  wf := dot_S4x4096x512_S4x4096x512_S4x4096x4096_2_2_1_1_0_0_wf
def dot_S4x4096x4096_S4x4096x512_S4x4096x512_2_1_1_2_0_0 : DotDims S4x4096x4096 S4x4096x512 S4x4096x512 where
  lhsContracting := [2]
  rhsContracting := [1]
  lhsNonContracting := [1]
  rhsNonContracting := [2]
  lhsBatch := [0]
  rhsBatch := [0]
  wf := dot_S4x4096x4096_S4x4096x512_S4x4096x512_2_1_1_2_0_0_wf

class Facts : Prop extends Facts₀ where

variable [Facts]
-- ==== Proof.KernelRun.lean ====
/-
  The idealized kernel program's run with every buffer named: from any launch memory, every weakly fair execution
  terminates, and each buffer that outlives the kernel regions ends at the contents the segment-by-segment fold
  through the program assigns it (the host stretch before the first region, the first region's write-backs, the
  host stretch between the regions, the second region's write-backs).
-/
import proofs.«116658_j4844723110037_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with every buffer that outlives the regions at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The program's run with the result array and the nine arguments read off the last boundary's contents. -/
theorem run_result : θ_run defs (onTc (τ := τ) (main (F := F))) ⟨m, fun _ => 0, ρ⟩ (fun r => ∀ c : Dev nD,
      r.2.mem ((c.tc : Thread nD τ).loc main_v12) = W4 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun s h c =>
      ⟨h c _ (mem_uc main_v12 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)
    (run_all m ρ)

end Cert.KernelIdeal.Run

end
-- ==== Proof.HostChain.lean ====
/-
  The host operations around the two kernel regions, read back: before the first region the input is flattened to
  16384 rows, the four weight matrices change format (the identity on extended reals) and the four biases become
  one-row matrices; between the regions the first region's two results are re-shaped to (4, 4096, 512).  Each buffer
  the second region reads is thereby a plain re-indexing of an argument array or of a result of the first region.
-/
import proofs.«116658_j4844723110037_2_alg».proof.Proof.Gen.KernelIdeal.Frame
import Idealize.ShloMosaic.Lib.StableHlo.Run
import Idealize.ShloMosaic.Lib.Tactic

set_option maxRecDepth 16384

noncomputable section

namespace Cert.KernelIdeal.Host

open Cert.KernelIdeal Cert.KernelIdeal.Gen
open Idealize.ShloMosaic Idealize.ShloMosaic.TcCoe Idealize.SL.Sem Idealize.ShloMosaic.Tactic

variable {F : FTy → Type} [FloatOps F]
variable (m : (ℓ : Loc nD τ sig) → Buf (Elt F) ℓ) (ρ : Dev nD → PrngReg)

/-! ## Before the first region -/

theorem V1_v0 (c : Dev nD) : V1 m ρ c main_v0 = shapeCast S16384x512 (m ((c : Thread nD τ).loc main_arg0)) shapeCasts_S4x4096x512_S16384x512 := by
  show StableHlo.after hostOps0 (W0 m ρ c) (Proc.devRef .tc main_v0) = _
  after_results
  rfl
theorem V1_v1 (c : Dev nD) : V1 m ρ c main_v1 = truncf .bf16 (m ((c : Thread nD τ).loc main_arg1)) bitsLt_bf16_f32 := by
  show StableHlo.after hostOps0 (W0 m ρ c) (Proc.devRef .tc main_v1) = _
  after_results
theorem V1_v2 (c : Dev nD) : V1 m ρ c main_v2 = truncf .bf16 (m ((c : Thread nD τ).loc main_arg3)) bitsLt_bf16_f32 := by
  show StableHlo.after hostOps0 (W0 m ρ c) (Proc.devRef .tc main_v2) = _
  after_results
theorem V1_v3 (c : Dev nD) : V1 m ρ c main_v3 = truncf .bf16 (m ((c : Thread nD τ).loc main_arg5)) bitsLt_bf16_f32 := by
  show StableHlo.after hostOps0 (W0 m ρ c) (Proc.devRef .tc main_v3) = _
  after_results
theorem V1_v4 (c : Dev nD) : V1 m ρ c main_v4 = truncf .bf16 (m ((c : Thread nD τ).loc main_arg7)) bitsLt_bf16_f32 := by
  show StableHlo.after hostOps0 (W0 m ρ c) (Proc.devRef .tc main_v4) = _
  after_results
theorem V1_v5 (c : Dev nD) : V1 m ρ c main_v5 = shapeCast S1x512 (m ((c : Thread nD τ).loc main_arg2)) shapeCasts_S512_S1x512 := by
  show StableHlo.after hostOps0 (W0 m ρ c) (Proc.devRef .tc main_v5) = _
  after_results
  rfl
theorem V1_v6 (c : Dev nD) : V1 m ρ c main_v6 = shapeCast S1x512 (m ((c : Thread nD τ).loc main_arg4)) shapeCasts_S512_S1x512 := by
  show StableHlo.after hostOps0 (W0 m ρ c) (Proc.devRef .tc main_v6) = _
  after_results
  rfl
theorem V1_v7 (c : Dev nD) : V1 m ρ c main_v7 = shapeCast S1x512 (m ((c : Thread nD τ).loc main_arg6)) shapeCasts_S512_S1x512 := by
  show StableHlo.after hostOps0 (W0 m ρ c) (Proc.devRef .tc main_v7) = _
  after_results
  rfl
theorem V1_v8 (c : Dev nD) : V1 m ρ c main_v8 = shapeCast S1x512 (m ((c : Thread nD τ).loc main_arg8)) shapeCasts_S512_S1x512 := by
  show StableHlo.after hostOps0 (W0 m ρ c) (Proc.devRef .tc main_v8) = _
  after_results
  rfl

/-! ## Between the regions -/

/-- The keys the second region reads: the first region's first result, re-shaped. -/
theorem V3_v10 (c : Dev nD) : V3 m ρ c main_v10
    = shapeCast S4x4096x512 ((dat0 (V1 m ρ) c).arrAt 5 cfg0.N) shapeCasts_S16384x512_S4x4096x512 := by
  rw [← W2_arr m ρ c 5]
  show StableHlo.after hostOps1 (W2 m ρ c) (Proc.devRef .tc main_v10) = _
  after_results
  rfl

/-- The values the second region reads: the first region's second result, re-shaped. -/
theorem V3_v11 (c : Dev nD) : V3 m ρ c main_v11
    = shapeCast S4x4096x512 ((dat0 (V1 m ρ) c).arrAt 6 cfg0.N) shapeCasts_S16384x512_S4x4096x512 := by
  rw [← W2_arr m ρ c 6]
  show StableHlo.after hostOps1 (W2 m ρ c) (Proc.devRef .tc main_v11) = _
  after_results
  rfl

/-- The input array is as launched when the second region is entered. -/
theorem V3_arg0 (c : Dev nD) : V3 m ρ c main_arg0 = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem V3_v1 (c : Dev nD) : V3 m ρ c main_v1 = V1 m ρ c main_v1 :=
  calc W3 m ρ c (Proc.devRef .tc main_v1)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)
theorem V3_v5 (c : Dev nD) : V3 m ρ c main_v5 = V1 m ρ c main_v5 :=
  calc W3 m ρ c (Proc.devRef .tc main_v5)
    _ = W2 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v5) := W2_of_ne m ρ c main_v5 (by decide)
theorem V3_v4 (c : Dev nD) : V3 m ρ c main_v4 = V1 m ρ c main_v4 :=
  calc W3 m ρ c (Proc.devRef .tc main_v4)
    _ = W2 m ρ c (Proc.devRef .tc main_v4) := StableHlo.after_of_forall_not_mem (b := Proc.devRef .tc main_v4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v4) := W2_of_ne m ρ c main_v4 (by decide)
theorem V3_v8 (c : Dev nD) : V3 m ρ c main_v8 = V1 m ρ c main_v8 :=
  calc W3 m ρ c (Proc.devRef .tc main_v8)
    _ = W2 m ρ c (Proc.devRef .tc main_v8) := StableHlo.after_of_forall_not_mem (b := Proc.devRef .tc main_v8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v8) := W2_of_ne m ρ c main_v8 (by decide)

end Cert.KernelIdeal.Host

end
-- ==== Proof.Attention.lean ====
/-
  Single-head attention without score scaling, as one function of the argument arrays.

  For a batch `b`, a query position `r` and an output column `d` the result is
  `(∑ h, y b r h * Wo h d) + bo d`, where `y b r h` is the softmax-weighted mean over the 4096 key
  positions `j` of the value projection `V b j h`, the weights `exp (S j - M) / ∑ j', exp (S j' - M)` taken
  of the scores `S j = ∑ h, Q b r h * K b j h` relative to a reference point `M` (the row's maximum), and
  `Q`, `K`, `V` are the three affine projections `x · W + b` of the input.

  Two spellings of the weighted mean of one row are defined: `refRow` (normalise every weight, then sum)
  and `onlineRow` (four chunks of 1024 keys absorbed one after the other into a running maximum, a running
  denominator and a running numerator, each rescaled by `exp (m_old - m_new)` when the maximum moves, the
  quotient taken once at the end).  On real scores and values they agree; that is proved elsewhere.
-/
import Idealize.ShloMosaic.PureOps.Ideal
import Idealize.ShloMosaic.Lib.ValueIdx

noncomputable section

namespace Cert.Attention

open Idealize.ShloMosaic Idealize.ShloMosaic.ValueIdx

abbrev SX : Shape := ⟨3, ![4, 4096, 512]⟩
abbrev SW : Shape := ⟨2, ![512, 512]⟩
abbrev SB : Shape := ⟨1, ![512]⟩

/-- The affine projection `x · W + b` at batch `bi`, position `s`, column `h`. -/
def proj (x : SX.Idx → EReal) (W : SW.Idx → EReal) (b : SB.Idx → EReal) (bi : Fin 4) (s : Fin 4096) (h : Fin 512) : EReal :=
  (∑ d : Fin 512, x (ix3 bi s d) * W (ix2 d h)) + b (ix1 h)

/-- The scores of query row `r` of batch `bi` against every key position. -/
def scores (Q K : Fin 4 → Fin 4096 → Fin 512 → EReal) (bi : Fin 4) (r : Fin 4096) : Fin 4096 → EReal :=
  fun j => ∑ h : Fin 512, Q bi r h * K bi j h

/-! ## One row, normalised weight by weight -/

/-- The row's reference point: its maximum, folded from `-∞`. -/
def refMax (S : Fin 4096 → EReal) : EReal := max ⊥ ((Finset.univ : Finset (Fin 4096)).fold max ⊥ S)

/-- The softmax-weighted mean of `V` under the scores `S`: every weight divided by the total, then summed. -/
def refRow (S V : Fin 4096 → EReal) : EReal :=
  ∑ k : Fin 4096, Ideal.div (Ideal.exp (S k - refMax S)) (∑ k' : Fin 4096, Ideal.exp (S k' - refMax S)) * V k

/-! ## One row, absorbed chunk by chunk -/

/-- Key position `1024 c + j`: the `j`-th key of chunk `c`. -/
def key (c : Fin 4) (j : Fin 1024) : Fin 4096 := ⟨1024 * c.val + j.val, by omega⟩

/-- The running maximum after absorbing chunk `c` into `m`. -/
def stepM (S : Fin 4096 → EReal) (m : EReal) (c : Fin 4) : EReal :=
  max m ((Finset.univ : Finset (Fin 1024)).fold max ⊥ fun j => S (key c j))

/-- The running denominator after absorbing chunk `c`: the old one rescaled to the new maximum, plus the chunk's weights. -/
def stepL (S : Fin 4096 → EReal) (m l : EReal) (c : Fin 4) : EReal :=
  Ideal.exp (m - stepM S m c) * l + ∑ j : Fin 1024, Ideal.exp (S (key c j) - stepM S m c)

/-- The running numerator after absorbing chunk `c`: the old one rescaled, plus the chunk's weighted values. -/
def stepA (S V : Fin 4096 → EReal) (m a : EReal) (c : Fin 4) : EReal :=
  Ideal.exp (m - stepM S m c) * a + ∑ j : Fin 1024, Ideal.exp (S (key c j) - stepM S m c) * V (key c j)

def m1 (S : Fin 4096 → EReal) : EReal := stepM S ⊥ 0
def m2 (S : Fin 4096 → EReal) : EReal := stepM S (m1 S) 1
def m3 (S : Fin 4096 → EReal) : EReal := stepM S (m2 S) 2
def l1 (S : Fin 4096 → EReal) : EReal := stepL S ⊥ 0 0
def l2 (S : Fin 4096 → EReal) : EReal := stepL S (m1 S) (l1 S) 1
def l3 (S : Fin 4096 → EReal) : EReal := stepL S (m2 S) (l2 S) 2
def l4 (S : Fin 4096 → EReal) : EReal := stepL S (m3 S) (l3 S) 3
def a1 (S V : Fin 4096 → EReal) : EReal := stepA S V ⊥ 0 0
def a2 (S V : Fin 4096 → EReal) : EReal := stepA S V (m1 S) (a1 S V) 1
def a3 (S V : Fin 4096 → EReal) : EReal := stepA S V (m2 S) (a2 S V) 2
def a4 (S V : Fin 4096 → EReal) : EReal := stepA S V (m3 S) (a3 S V) 3

/-- The weighted mean as the chunked recurrence leaves it: final numerator over final denominator. -/
def onlineRow (S V : Fin 4096 → EReal) : EReal := Ideal.div (a4 S V) (l4 S)

/-! ## The whole result -/

/-- The result with a given spelling `row` of the weighted mean. -/
def attnWith (row : (Fin 4096 → EReal) → (Fin 4096 → EReal) → EReal)
    (x : SX.Idx → EReal) (Wq : SW.Idx → EReal) (bq : SB.Idx → EReal) (Wk : SW.Idx → EReal) (bk : SB.Idx → EReal)
    (Wv : SW.Idx → EReal) (bv : SB.Idx → EReal) (Wo : SW.Idx → EReal) (bo : SB.Idx → EReal) : SX.Idx → EReal :=
  fun i => (∑ h : Fin 512, row (scores (proj x Wq bq) (proj x Wk bk) (i 0) (i 1)) (fun j => proj x Wv bv (i 0) j h) * Wo (ix2 h (i 2)))
    + bo (ix1 (i 2))

/-- The attention output, every weight normalised before the sum. -/
def G := attnWith refRow

/-- The same with the chunked recurrence. -/
def Gonline := attnWith onlineRow

end Cert.Attention

end
-- ==== Proof.KernelSpec.lean ====
/-
  What the two kernel regions compute, as functions of the arrays they find.

  The first region turns the flattened input `X` (16384 rows of 512) into `X · W + b`, once for the key weights and
  once for the value weights.  The second region, for batch `b`, query row `r` and output column `d`, projects the
  query row (`X · Wq + bq`), absorbs the batch's 4096 keys and values chunk by chunk into the running maximum,
  denominator and numerator (`Cert.Attention.onlineRow`), divides, and applies the output projection.
  `bodyF` is the second region's body on one block: 512 query rows of one batch against that batch's keys and values.
-/
import proofs.«116658_j4844723110037_2_alg».proof.Proof.Gen.KernelIdeal
import proofs.«116658_j4844723110037_2_alg».proof.Proof.Attention
import Idealize.ShloMosaic.Lib.ValueIdx

noncomputable section

namespace Cert.KernelIdeal.Spec

open Cert.KernelIdeal Idealize.ShloMosaic Idealize.ShloMosaic.ValueIdx

/-- `X · W + b` over the flattened rows: what the first region leaves in each of its two result arrays. -/
def affArr (X : S16384x512.Idx → EReal) (W : S512x512.Idx → EReal) (b : S1x512.Idx → EReal) : S16384x512.Idx → EReal :=
  fun i => (∑ d : Fin 512, X (ix2 (i 0) d) * W (ix2 d (i 1))) + b (ix2 (0 : Fin 1) (i 1))

/-- The query projection of row `r` of a block, column `h`. -/
def qrow (x0 : S1x512x512.Idx → EReal) (x1 : S512x512.Idx → EReal) (x2 : S1x512.Idx → EReal) (r h : Fin 512) : EReal :=
  (∑ d : Fin 512, x0 (ix3 (0 : Fin 1) r d) * x1 (ix2 d h)) + x2 (ix2 (0 : Fin 1) h)

/-- The second region's body on one block: the block of queries `x0`, the query weights and bias `x1`, `x2`, the
    batch's keys `x3` and values `x4`, the output weights and bias `x5`, `x6`. -/
def bodyF (x0 : S1x512x512.Idx → EReal) (x1 : S512x512.Idx → EReal) (x2 : S1x512.Idx → EReal)
    (x3 x4 : S1x4096x512.Idx → EReal) (x5 : S512x512.Idx → EReal) (x6 : S1x512.Idx → EReal) : S1x512x512.Idx → EReal :=
  fun y => (∑ h : Fin 512,
      Cert.Attention.onlineRow (fun k => ∑ h' : Fin 512, qrow x0 x1 x2 (y 1) h' * x3 (ix3 (0 : Fin 1) k h'))
        (fun k => x4 (ix3 (0 : Fin 1) k h)) * x5 (ix2 h (y 2)))
    + x6 (ix2 (0 : Fin 1) (y 2))

/-- What the second region leaves in its result array, from the arrays it finds. -/
def attnArr (X : S4x4096x512.Idx → EReal) (Wq : S512x512.Idx → EReal) (bq : S1x512.Idx → EReal)
    (K V : S4x4096x512.Idx → EReal) (Wo : S512x512.Idx → EReal) (bo : S1x512.Idx → EReal) : S4x4096x512.Idx → EReal :=
  fun i => (∑ h : Fin 512,
      Cert.Attention.onlineRow
        (fun k => ∑ h' : Fin 512, ((∑ d : Fin 512, X (ix3 (i 0) (i 1) d) * Wq (ix2 d h')) + bq (ix2 (0 : Fin 1) h')) * K (ix3 (i 0) k h'))
        (fun k => V (ix3 (i 0) k h)) * Wo (ix2 h (i 2)))
    + bo (ix2 (0 : Fin 1) (i 2))

end Cert.KernelIdeal.Spec

end
-- ==== Proof.Dots.lean ====
/-
  The kernel's four matrix products read at an index: each is, at row `a` and column `b` of its result, the sum over
  the one contracted coordinate `k` of the left operand at `(a, k)` times the right operand at `(k, b)` — or at
  `(b, k)` for the product that contracts both operands' second axes (a product with a transpose never formed).
-/
import proofs.«116658_j4844723110037_2_alg».proof.Proof.Gen.KernelIdeal
import Idealize.ShloMosaic.Lib.ValueIdx
import Idealize.ShloMosaic.PureOps.Ideal.Laws

noncomputable section

namespace Cert.KernelIdeal.Dots

open Cert.KernelIdeal Cert.KernelIdeal.Gen Idealize.ShloMosaic Idealize.ShloMosaic.ValueIdx

theorem dot_kv_l (i : S2048x512.Idx) (q : dot_S2048x512_S512x512_S2048x512_1_0_0_1_n_n.contr.Idx) : (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem dot_kv_r (i : S2048x512.Idx) (q : dot_S2048x512_S512x512_S2048x512_1_0_0_1_n_n.contr.Idx) : (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The product `dot_S2048x512_S512x512_S2048x512_1_0_0_1_n_n` into a zero accumulator, at row `a` and column `b`: the sum over the contracted coordinate. -/
theorem dot_kv (l : FVec Ideal S2048x512 .bf16) (r : FVec Ideal S512x512 .bf16) (a : Fin 2048) (b : Fin 512) :
    matmul dot_S2048x512_S512x512_S2048x512_1_0_0_1_n_n none l r (constant S2048x512 .f32 0x00000000#32) (ix2 a b)
      = ∑ k : Fin 512, l (ix2 a k) * r (ix2 k b) := by
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 a b) ((contrEquiv1 dot_S2048x512_S512x512_S2048x512_1_0_0_1_n_n 512 rfl rfl).symm k) = ix2 a k := funext fun x => Fin.ext (by
    match x with
    | ⟨0, _⟩ => exact dot_kv_l _ _
    | ⟨1, _⟩ => exact (dot_S2048x512_S512x512_S2048x512_1_0_0_1_n_n.lhsIdx_val_of_single rfl (ix2 a b) _).trans hk)
  have er : dot_S2048x512_S512x512_S2048x512_1_0_0_1_n_n.rhsIdx (ix2 a b) ((contrEquiv1 dot_S2048x512_S512x512_S2048x512_1_0_0_1_n_n 512 rfl rfl).symm k) = ix2 k b := funext fun x => Fin.ext (by
    match x with
    | ⟨0, _⟩ => exact (dot_S2048x512_S512x512_S2048x512_1_0_0_1_n_n.rhsIdx_val_of_single rfl (ix2 a b) _).trans hk
    | ⟨1, _⟩ => exact dot_kv_r _ _)
  rw [el, er]

theorem dot_sq_l (i : S512x512.Idx) (q : dot_S512x512_S512x512_S512x512_1_0_0_1_n_n.contr.Idx) : (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem dot_sq_r (i : S512x512.Idx) (q : dot_S512x512_S512x512_S512x512_1_0_0_1_n_n.contr.Idx) : (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The product `dot_S512x512_S512x512_S512x512_1_0_0_1_n_n` into a zero accumulator, at row `a` and column `b`: the sum over the contracted coordinate. -/
theorem dot_sq (l : FVec Ideal S512x512 .bf16) (r : FVec Ideal S512x512 .bf16) (a : Fin 512) (b : Fin 512) :
    matmul dot_S512x512_S512x512_S512x512_1_0_0_1_n_n none l r (constant S512x512 .f32 0x00000000#32) (ix2 a b)
      = ∑ k : Fin 512, l (ix2 a k) * r (ix2 k b) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 a b) ((contrEquiv1 dot_S512x512_S512x512_S512x512_1_0_0_1_n_n 512 rfl rfl).symm k) = ix2 a k := funext fun x => Fin.ext (by
    match x with
    | ⟨0, _⟩ => exact dot_sq_l _ _
    | ⟨1, _⟩ => exact (dot_S512x512_S512x512_S512x512_1_0_0_1_n_n.lhsIdx_val_of_single rfl (ix2 a b) _).trans hk)
  have er : dot_S512x512_S512x512_S512x512_1_0_0_1_n_n.rhsIdx (ix2 a b) ((contrEquiv1 dot_S512x512_S512x512_S512x512_1_0_0_1_n_n 512 rfl rfl).symm k) = ix2 k b := funext fun x => Fin.ext (by
    match x with
    | ⟨0, _⟩ => exact (dot_S512x512_S512x512_S512x512_1_0_0_1_n_n.rhsIdx_val_of_single rfl (ix2 a b) _).trans hk
    | ⟨1, _⟩ => exact dot_sq_r _ _)
  rw [el, er]

theorem dot_qk_l (i : S512x1024.Idx) (q : dot_S512x512_S1024x512_S512x1024_1_1_0_0_n_n.contr.Idx) : (dot_S512x512_S1024x512_S512x1024_1_1_0_0_n_n.lhsIdx i q 0).val = (i 0).val := by
  unfold DotDims.lhsIdx
  rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
  rfl
theorem dot_qk_r (i : S512x1024.Idx) (q : dot_S512x512_S1024x512_S512x1024_1_1_0_0_n_n.contr.Idx) : (dot_S512x512_S1024x512_S512x1024_1_1_0_0_n_n.rhsIdx i q 0).val = (i 1).val := by
  unfold DotDims.rhsIdx
  rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
  rfl

/-- The product `dot_S512x512_S1024x512_S512x1024_1_1_0_0_n_n` into a zero accumulator, at row `a` and column `b`: the sum over the contracted coordinate. -/
theorem dot_qk (l : FVec Ideal S512x512 .bf16) (r : FVec Ideal S1024x512 .bf16) (a : Fin 512) (b : Fin 1024) :
    matmul dot_S512x512_S1024x512_S512x1024_1_1_0_0_n_n none l r (constant S512x1024 .f32 0x00000000#32) (ix2 a b)
      = ∑ k : Fin 512, l (ix2 a k) * r (ix2 b k) := by
  simp only [matmul]
  rw [Ideal.matmul_constant_zero_apply, ← Equiv.sum_comp (contrEquiv1 dot_S512x512_S1024x512_S512x1024_1_1_0_0_n_n 512 rfl rfl).symm]
  refine Finset.sum_congr rfl fun k _ => ?_
  have hk := contrEquiv1_symm_val dot_S512x512_S1024x512_S512x1024_1_1_0_0_n_n 512 rfl rfl k
  have el : dot_S512x512_S1024x512_S512x1024_1_1_0_0_n_n.lhsIdx (ix2 a b) ((contrEquiv1 dot_S512x512_S1024x512_S512x1024_1_1_0_0_n_n 512 rfl rfl).symm k) = ix2 a k := funext fun x => Fin.ext (by
    match x with
    | ⟨0, _⟩ => exact dot_qk_l _ _
    | ⟨1, _⟩ => exact (dot_S512x512_S1024x512_S512x1024_1_1_0_0_n_n.lhsIdx_val_of_single rfl (ix2 a b) _).trans hk)
  have er : dot_S512x512_S1024x512_S512x1024_1_1_0_0_n_n.rhsIdx (ix2 a b) ((contrEquiv1 dot_S512x512_S1024x512_S512x1024_1_1_0_0_n_n 512 rfl rfl).symm k) = ix2 b k := funext fun x => Fin.ext (by
    match x with
    | ⟨1, _⟩ => exact (dot_S512x512_S1024x512_S512x1024_1_1_0_0_n_n.rhsIdx_val_of_single rfl (ix2 a b) _).trans hk
    | ⟨0, _⟩ => exact dot_qk_r _ _)
  rw [el, er]

theorem dot_pv_l (i : S512x512.Idx) (q : dot_S512x1024_S1024x512_S512x512_1_0_0_1_n_n.contr.Idx) : (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem dot_pv_r (i : S512x512.Idx) (q : dot_S512x1024_S1024x512_S512x512_1_0_0_1_n_n.contr.Idx) : (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The product `dot_S512x1024_S1024x512_S512x512_1_0_0_1_n_n` into a zero accumulator, at row `a` and column `b`: the sum over the contracted coordinate. -/
theorem dot_pv (l : FVec Ideal S512x1024 .bf16) (r : FVec Ideal S1024x512 .bf16) (a : Fin 512) (b : Fin 512) :
    matmul dot_S512x1024_S1024x512_S512x512_1_0_0_1_n_n none l r (constant S512x512 .f32 0x00000000#32) (ix2 a b)
      = ∑ k : Fin 1024, l (ix2 a k) * r (ix2 k b) := by
  simp only [matmul]
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 a b) ((contrEquiv1 dot_S512x1024_S1024x512_S512x512_1_0_0_1_n_n 1024 rfl rfl).symm k) = ix2 a k := funext fun x => Fin.ext (by
    match x with
    | ⟨0, _⟩ => exact dot_pv_l _ _
    | ⟨1, _⟩ => exact (dot_S512x1024_S1024x512_S512x512_1_0_0_1_n_n.lhsIdx_val_of_single rfl (ix2 a b) _).trans hk)
  have er : dot_S512x1024_S1024x512_S512x512_1_0_0_1_n_n.rhsIdx (ix2 a b) ((contrEquiv1 dot_S512x1024_S1024x512_S512x512_1_0_0_1_n_n 1024 rfl rfl).symm k) = ix2 k b := funext fun x => Fin.ext (by
    match x with
    | ⟨0, _⟩ => exact (dot_S512x1024_S1024x512_S512x512_1_0_0_1_n_n.rhsIdx_val_of_single rfl (ix2 a b) _).trans hk
    | ⟨1, _⟩ => exact dot_pv_r _ _)
  rw [el, er]

end Cert.KernelIdeal.Dots

end
-- ==== Proof.KVValue.lean ====
/-
  The first region's two result arrays as functions of the arrays the region finds.

  Each of the eight points reads one block of 2048 rows of the flattened input X, the whole weights W and the whole
  bias b, and leaves X · W + b on those rows; the eight row blocks tile the 16384 rows, so each result array ends
  holding X · W + b at every index (Spec.affArr), once for the key weights and once for the value weights.
-/
import proofs.«116658_j4844723110037_2_alg».proof.Proof.Gen.KernelIdeal.Frame
import proofs.«116658_j4844723110037_2_alg».proof.Proof.KernelSpec
import proofs.«116658_j4844723110037_2_alg».proof.Proof.Dots
import Idealize.ShloMosaic.Lib.Pipeline.Value
import Idealize.ShloMosaic.Lib.ValueLayout

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Narrowing to the 16-bit format changes nothing at the ideal values. -/
theorem pay1_eq (v0 : FVec Ideal S2048x512 .f32) : k0_pay1 (F := Ideal) v0 = v0 := by
  unfold k0_pay1
  simp only [shapeCast_self]
  rfl

/-- The first payload at row p and column q: the row of the block times the column of the weights, plus the bias. -/
theorem pay2_at (v0 : FVec Ideal S2048x512 .f32) (v3 : FVec Ideal S512x512 .bf16) (v6 : FVec Ideal S1x512 .f32)
    (p : Fin 2048) (q : Fin 512) :
    k0_pay2 (F := Ideal) v0 v3 v6 (ix2 p q) = (∑ d : Fin 512, v0 (ix2 p d) * v3 (ix2 d q)) + v6 (ix2 (0 : Fin 1) q) := by
  unfold k0_pay2
  simp only [shapeCast_self]
  show matmul dot_S2048x512_S512x512_S2048x512_1_0_0_1_n_n none (k0_pay1 (F := Ideal) v0) v3 (constant S2048x512 .f32 0x00000000#32) (ix2 p q)
      + broadcastTo S2048x512 v6 broadcasts_S1x512_S2048x512 (ix2 p q) = _
  rw [Dots.dot_kv, pay1_eq, broadcastTo_apply v6 _ (ix2 p q) (ix2 (0 : Fin 1) q) (fun a => by
    match a with
    | ⟨0, _⟩ => rfl
    | ⟨1, _⟩ => rfl)]

/-- The second payload at row p and column q: the row of the block times the column of the weights, plus the bias. -/
theorem pay3_at (v0 : FVec Ideal S2048x512 .f32) (v3 : FVec Ideal S512x512 .bf16) (v6 : FVec Ideal S1x512 .f32)
    (p : Fin 2048) (q : Fin 512) :
    k0_pay3 (F := Ideal) v0 v3 v6 (ix2 p q) = (∑ d : Fin 512, v0 (ix2 p d) * v3 (ix2 d q)) + v6 (ix2 (0 : Fin 1) q) := by
  unfold k0_pay3
  simp only [shapeCast_self]
  show matmul dot_S2048x512_S512x512_S2048x512_1_0_0_1_n_n none (k0_pay1 (F := Ideal) v0) v3 (constant S2048x512 .f32 0x00000000#32) (ix2 p q)
      + broadcastTo S2048x512 v6 broadcasts_S1x512_S2048x512 (ix2 p q) = _
  rw [Dots.dot_kv, pay1_eq, broadcastTo_apply v6 _ (ix2 p q) (ix2 (0 : Fin 1) q) (fun a => by
    match a with
    | ⟨0, _⟩ => rfl
    | ⟨1, _⟩ => rfl)]

theorem hz : (![0, 0] : Fin 2 → Nat) = fun _ => 0 := funext fun a => by fin_cases a <;> rfl

/-- The index maps, decided over the eight points: the row blocks of the input and of the two results are the
    point's own, and the weights and biases are whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The input's block at point t is rows 2048·t … 2048·t + 2047 of the flattened input. -/
theorem iblk0_0_apply (c : Dev nD) (t : Fin cfg0.N) (x : S2048x512.Idx) (k : S16384x512.Idx)
    (hk0 : (k 0).val = t.val * 2048 + (x 0).val) (hk1 : (k 1).val = (x 1).val) :
    (iblk0 V c 0 t : Vec Ideal S2048x512 .f32) x = (V c main_v0 : S16384x512.Idx → EReal) k := by
  obtain ⟨e0, e1, -⟩ := idx_facts t
  unfold iblk0
  rw [View.read_apply]
  show V c main_v0 _ = V c main_v0 _
  congr 1
  funext a
  apply Fin.ext
  match a with
  | ⟨0, _⟩ => show win0_0.index t (0 : Fin 2) * 2048 + 1 * (x 0).val = (k 0).val; omega
  | ⟨1, _⟩ => show win0_0.index t (1 : Fin 2) * 512 + 1 * (x 1).val = (k 1).val; omega

/-- The weights' and biases' blocks are the whole arrays, at every point. -/
theorem iblk0_1_eq (c : Dev nD) (t : Fin cfg0.N) :
    (iblk0 V c 1 t : Vec Ideal S512x512 .bf16) = (V c main_v2 : S512x512.Idx → EReal) := by
  obtain ⟨-, -, e2, e3, e4, e5, e6, e7, e8, e9, -⟩ := idx_facts t
  funext x
  unfold iblk0
  rw [View.read_apply]
  show V c main_v2 _ = V c main_v2 _
  congr 1
  funext a
  apply Fin.ext
  match a with
  | ⟨0, _⟩ => show win0_1.index t (0 : Fin 2) * 512 + 1 * (x 0).val = (x 0).val; omega
  | ⟨1, _⟩ => show win0_1.index t (1 : Fin 2) * 512 + 1 * (x 1).val = (x 1).val; omega

theorem iblk0_2_eq (c : Dev nD) (t : Fin cfg0.N) :
    (iblk0 V c 2 t : Vec Ideal S1x512 .f32) = (V c main_v6 : S1x512.Idx → EReal) := by
  obtain ⟨-, -, e2, e3, e4, e5, e6, e7, e8, e9, -⟩ := idx_facts t
  funext x
  unfold iblk0
  rw [View.read_apply]
  show V c main_v6 _ = V c main_v6 _
  congr 1
  funext a
  apply Fin.ext
  match a with
  | ⟨0, _⟩ => show win0_2.index t (0 : Fin 2) * 1 + 1 * (x 0).val = (x 0).val; omega
  | ⟨1, _⟩ => show win0_2.index t (1 : Fin 2) * 512 + 1 * (x 1).val = (x 1).val; omega

theorem iblk0_3_eq (c : Dev nD) (t : Fin cfg0.N) :
    (iblk0 V c 3 t : Vec Ideal S512x512 .bf16) = (V c main_v3 : S512x512.Idx → EReal) := by
  obtain ⟨-, -, e2, e3, e4, e5, e6, e7, e8, e9, -⟩ := idx_facts t
  funext x
  unfold iblk0
  rw [View.read_apply]
  show V c main_v3 _ = V c main_v3 _
  congr 1
  funext a
  apply Fin.ext
  match a with
  | ⟨0, _⟩ => show win0_3.index t (0 : Fin 2) * 512 + 1 * (x 0).val = (x 0).val; omega
  | ⟨1, _⟩ => show win0_3.index t (1 : Fin 2) * 512 + 1 * (x 1).val = (x 1).val; omega

theorem iblk0_4_eq (c : Dev nD) (t : Fin cfg0.N) :
    (iblk0 V c 4 t : Vec Ideal S1x512 .f32) = (V c main_v7 : S1x512.Idx → EReal) := by
  obtain ⟨-, -, e2, e3, e4, e5, e6, e7, e8, e9, -⟩ := idx_facts t
  funext x
  unfold iblk0
  rw [View.read_apply]
  show V c main_v7 _ = V c main_v7 _
  congr 1
  funext a
  apply Fin.ext
  match a with
  | ⟨0, _⟩ => show win0_4.index t (0 : Fin 2) * 1 + 1 * (x 0).val = (x 0).val; omega
  | ⟨1, _⟩ => show win0_4.index t (1 : Fin 2) * 512 + 1 * (x 1).val = (x 1).val; omega

/-- One block of the result: with the input's block reading rows T·2048 … of X, the payload at a block index is
    X · W + b at the array index it sits at. -/
theorem pay2_block (X : S16384x512.Idx → EReal) (W : S512x512.Idx → EReal) (b : S1x512.Idx → EReal)
    (v0 : FVec Ideal S2048x512 .f32) (T : Nat)
    (h0 : ∀ (x : S2048x512.Idx) (k : S16384x512.Idx), (k 0).val = T * 2048 + (x 0).val → (k 1).val = (x 1).val → v0 x = X k)
    (j : S2048x512.Idx) (i : S16384x512.Idx) (hi0 : (i 0).val = T * 2048 + (j 0).val) (hi1 : (i 1).val = (j 1).val) :
    k0_pay2 (F := Ideal) v0 W b j = Spec.affArr X W b i := by
  obtain ⟨p, q, rfl⟩ : ∃ p q, j = ix2 p q := ⟨_, _, eq_ix2 j⟩
  rw [pay2_at]
  unfold Spec.affArr
  have hq : i 1 = q := Fin.ext hi1
  rw [hq]
  congr 1
  exact Finset.sum_congr rfl fun d _ => by rw [h0 (ix2 p d) (ix2 (i 0) d) hi0 rfl]

theorem pay3_block (X : S16384x512.Idx → EReal) (W : S512x512.Idx → EReal) (b : S1x512.Idx → EReal)
    (v0 : FVec Ideal S2048x512 .f32) (T : Nat)
    (h0 : ∀ (x : S2048x512.Idx) (k : S16384x512.Idx), (k 0).val = T * 2048 + (x 0).val → (k 1).val = (x 1).val → v0 x = X k)
    (j : S2048x512.Idx) (i : S16384x512.Idx) (hi0 : (i 0).val = T * 2048 + (j 0).val) (hi1 : (i 1).val = (j 1).val) :
    k0_pay3 (F := Ideal) v0 W b j = Spec.affArr X W b i := by
  obtain ⟨p, q, rfl⟩ : ∃ p q, j = ix2 p q := ⟨_, _, eq_ix2 j⟩
  rw [pay3_at]
  unfold Spec.affArr
  have hq : i 1 = q := Fin.ext hi1
  rw [hq]
  congr 1
  exact Finset.sum_congr rfl fun d _ => by rw [h0 (ix2 p d) (ix2 (i 0) d) hi0 rfl]

/-- What point t writes back into the first result is block t of X · W + b. -/
theorem flushed5_eq (c : Dev nD) (t : Fin cfg0.N) :
    (dat0 V c).flushed 5 t = ((cfg0.win 5).blk t).view.read (Elt Ideal) (Spec.affArr (V c main_v0) (V c main_v2) (V c main_v6)) := by
  show (cfg0.win 5).cut (grid0.coords t) ((dat0 V c).after 5 t) = _
  rw [after0_5]
  unfold out0_5
  rw [View.canon_unit_zero hz]
  simp only [View.ld_unit_zero (S := S2048x512) hz, View.ld_unit_zero (S := S512x512) hz, View.ld_unit_zero (S := S1x512) hz]
  rw [iblk0_1_eq, iblk0_2_eq]
  obtain ⟨-, -, -, -, -, -, -, -, -, -, e10, e11, e12, e13⟩ := idx_facts t
  funext j
  show k0_pay2 (F := Ideal) (iblk0 V c 0 t) (V c main_v2) (V c main_v6) j
    = Spec.affArr (V c main_v0) (V c main_v2) (V c main_v6) (((cfg0.win 5).blk t).view.emb j)
  refine pay2_block (V c main_v0) (V c main_v2) (V c main_v6) _ t.val (fun x k h0 h1 => iblk0_0_apply V c t x k h0 h1) j _ ?_ ?_
  · show win0_5.index t (0 : Fin 2) * 2048 + 1 * (j 0).val = t.val * 2048 + (j 0).val; omega
  · show win0_5.index t (1 : Fin 2) * 512 + 1 * (j 1).val = (j 1).val; omega

/-- Every index of the first result is in the block of the point its row falls in (row / 2048). -/
theorem cover5 (c : Dev nD) (i : ((cfg0.win 5).arr.view.loc (c.tc : Thread nD τ)).2.ty.Idx) :
    ∃ t : Fin cfg0.N, (cfg0.win 5).flush t = true ∧ i ∈ ((cfg0.win 5).blk t).view.set := by
  have hi0 : (i 0 : Nat) < 16384 := (i 0).isLt
  have hi1 : (i 1 : Nat) < 512 := (i 1).isLt
  obtain ⟨t, ht⟩ : ∃ t : Fin cfg0.N, t.val = (i 0 : Nat) / 2048 :=
    ⟨⟨(i 0 : Nat) / 2048, by show _ < grid0.N; rw [N_0]; omega⟩, rfl⟩
  obtain ⟨-, -, -, -, -, -, -, -, -, -, e10, e11, e12, e13⟩ := idx_facts t
  refine ⟨t, flush0_5 t, ?_⟩
  show i ∈ ((View.whole main_v9_0).slice (win0_5.rect t)).set
  rw [View.set_slice_whole, Rect.mem_set_unit]
  intro a
  match a with
  | ⟨0, _⟩ => show win0_5.index t (0 : Fin 2) * 2048 ≤ (i 0 : Nat) ∧ (i 0 : Nat) < win0_5.index t (0 : Fin 2) * 2048 + 2048; omega
  | ⟨1, _⟩ => show win0_5.index t (1 : Fin 2) * 512 ≤ (i 1 : Nat) ∧ (i 1 : Nat) < win0_5.index t (1 : Fin 2) * 512 + 512; omega

/-- The first result after the region: X · W + b over the flattened rows. -/
theorem final5 (c : Dev nD) :
    (dat0 V c).arrAt 5 cfg0.N = Cert.KernelIdeal.Spec.affArr (V c main_v0) (V c main_v2) (V c main_v6) :=
  (dat0 V c).arrAt_eq_of_cover 5 _ (fun t _ => flushed5_eq V c t) (cover5 c)

/-- What point t writes back into the second result is block t of X · W + b. -/
theorem flushed6_eq (c : Dev nD) (t : Fin cfg0.N) :
    (dat0 V c).flushed 6 t = ((cfg0.win 6).blk t).view.read (Elt Ideal) (Spec.affArr (V c main_v0) (V c main_v3) (V c main_v7)) := by
  show (cfg0.win 6).cut (grid0.coords t) ((dat0 V c).after 6 t) = _
  rw [after0_6]
  unfold out0_6
  rw [View.canon_unit_zero hz]
  simp only [View.ld_unit_zero (S := S2048x512) hz, View.ld_unit_zero (S := S512x512) hz, View.ld_unit_zero (S := S1x512) hz]
  rw [iblk0_3_eq, iblk0_4_eq]
  obtain ⟨-, -, -, -, -, -, -, -, -, -, e10, e11, e12, e13⟩ := idx_facts t
  funext j
  show k0_pay3 (F := Ideal) (iblk0 V c 0 t) (V c main_v3) (V c main_v7) j
    = Spec.affArr (V c main_v0) (V c main_v3) (V c main_v7) (((cfg0.win 6).blk t).view.emb j)
  refine pay3_block (V c main_v0) (V c main_v3) (V c main_v7) _ t.val (fun x k h0 h1 => iblk0_0_apply V c t x k h0 h1) j _ ?_ ?_
  · show win0_6.index t (0 : Fin 2) * 2048 + 1 * (j 0).val = t.val * 2048 + (j 0).val; omega
  · show win0_6.index t (1 : Fin 2) * 512 + 1 * (j 1).val = (j 1).val; omega

/-- Every index of the second result is in the block of the point its row falls in (row / 2048). -/
theorem cover6 (c : Dev nD) (i : ((cfg0.win 6).arr.view.loc (c.tc : Thread nD τ)).2.ty.Idx) :
    ∃ t : Fin cfg0.N, (cfg0.win 6).flush t = true ∧ i ∈ ((cfg0.win 6).blk t).view.set := by
  have hi0 : (i 0 : Nat) < 16384 := (i 0).isLt
  have hi1 : (i 1 : Nat) < 512 := (i 1).isLt
  obtain ⟨t, ht⟩ : ∃ t : Fin cfg0.N, t.val = (i 0 : Nat) / 2048 :=
    ⟨⟨(i 0 : Nat) / 2048, by show _ < grid0.N; rw [N_0]; omega⟩, rfl⟩
  obtain ⟨-, -, -, -, -, -, -, -, -, -, e10, e11, e12, e13⟩ := idx_facts t
  refine ⟨t, flush0_6 t, ?_⟩
  show i ∈ ((View.whole main_v9_1).slice (win0_6.rect t)).set
  rw [View.set_slice_whole, Rect.mem_set_unit]
  intro a
  match a with
  | ⟨0, _⟩ => show win0_6.index t (0 : Fin 2) * 2048 ≤ (i 0 : Nat) ∧ (i 0 : Nat) < win0_6.index t (0 : Fin 2) * 2048 + 2048; omega
  | ⟨1, _⟩ => show win0_6.index t (1 : Fin 2) * 512 ≤ (i 1 : Nat) ∧ (i 1 : Nat) < win0_6.index t (1 : Fin 2) * 512 + 512; omega

/-- The second result after the region: X · W + b over the flattened rows. -/
theorem final6 (c : Dev nD) :
    (dat0 V c).arrAt 6 cfg0.N = Cert.KernelIdeal.Spec.affArr (V c main_v0) (V c main_v3) (V c main_v7) :=
  (dat0 V c).arrAt_eq_of_cover 6 _ (fun t _ => flushed6_eq V c t) (cover6 c)

end Cert.KernelIdeal.KV
-- ==== Proof.AttnArray.lean ====
/-
  The attention region's result array, from what each grid point leaves in the output window.

  The grid has a point for every batch b (of 4) and query tile i (of 8 tiles of 512 rows).  The point's body sees
  block (b, i, 0) of the input, all of the query weights and bias, block (b, 0, 0) of the keys and of the values
  (the whole batch), all of the output weights and bias, and leaves a block that is written back as block
  (b, i, 0) of the result.  Given that the body's block is bodyF of the blocks it sees, the result array is
  attnArr of the arrays: each index (b, s, d) lies in the block of the point (b, s / 512), and there bodyF reads
  the arrays at the rows and columns attnArr names.
-/
import proofs.«116658_j4844723110037_2_alg».proof.Proof.Gen.KernelIdeal.Frame
import proofs.«116658_j4844723110037_2_alg».proof.Proof.KernelSpec
import Idealize.ShloMosaic.Lib.Pipeline.Value

set_option maxRecDepth 16384

noncomputable section

namespace Cert.KernelIdeal.AttnArr

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.Spec

variable (V : (c : Dev nD) → (b : Ref sig .tc) → Buf (Elt Ideal) ((c : Thread nD τ).loc b))

/-! ## The body on one block against the arrays -/

/-- If the blocks the body sees are the arrays read at the rows of batch (p 0), query row (p 1), and the output
    column agrees, the body's value at y is attnArr's at p. -/
theorem body_eq (X : S4x4096x512.Idx → EReal) (Wq : S512x512.Idx → EReal) (bq : S1x512.Idx → EReal)
    (K Vv : S4x4096x512.Idx → EReal) (Wo : S512x512.Idx → EReal) (bo : S1x512.Idx → EReal)
    (x0 : S1x512x512.Idx → EReal) (x1 : S512x512.Idx → EReal) (x2 : S1x512.Idx → EReal)
    (x3 x4 : S1x4096x512.Idx → EReal) (x5 : S512x512.Idx → EReal) (x6 : S1x512.Idx → EReal)
    (r : Fin 512) (d : Fin 512) (b : Fin 4) (s : Fin 4096)
    (h0 : ∀ e : Fin 512, x0 (ix3 (0 : Fin 1) r e) = X (ix3 b s e))
    (h1 : x1 = Wq) (h2 : x2 = bq)
    (h3 : ∀ (k : Fin 4096) (h : Fin 512), x3 (ix3 (0 : Fin 1) k h) = K (ix3 b k h))
    (h4 : ∀ (k : Fin 4096) (h : Fin 512), x4 (ix3 (0 : Fin 1) k h) = Vv (ix3 b k h))
    (h5 : x5 = Wo) (h6 : x6 = bo) :
    bodyF x0 x1 x2 x3 x4 x5 x6 (ix3 (0 : Fin 1) r d) = attnArr X Wq bq K Vv Wo bo (ix3 b s d) := by
  subst h1 h2 h5 h6
  unfold bodyF attnArr qrow
  show (∑ h : Fin 512,
      Cert.Attention.onlineRow (fun k => ∑ h' : Fin 512, ((∑ e : Fin 512, x0 (ix3 (0 : Fin 1) r e) * x1 (ix2 e h')) + x2 (ix2 (0 : Fin 1) h')) * x3 (ix3 (0 : Fin 1) k h'))
        (fun k => x4 (ix3 (0 : Fin 1) k h)) * x5 (ix2 h d)) + x6 (ix2 (0 : Fin 1) d)
    = (∑ h : Fin 512,
      Cert.Attention.onlineRow (fun k => ∑ h' : Fin 512, ((∑ e : Fin 512, X (ix3 b s e) * x1 (ix2 e h')) + x2 (ix2 (0 : Fin 1) h')) * K (ix3 b k h'))
        (fun k => Vv (ix3 b k h)) * x5 (ix2 h d)) + x6 (ix2 (0 : Fin 1) d)
  have e0 : (fun k : Fin 4096 => ∑ h' : Fin 512, ((∑ e : Fin 512, x0 (ix3 (0 : Fin 1) r e) * x1 (ix2 e h')) + x2 (ix2 (0 : Fin 1) h')) * x3 (ix3 (0 : Fin 1) k h'))
      = fun k : Fin 4096 => ∑ h' : Fin 512, ((∑ e : Fin 512, X (ix3 b s e) * x1 (ix2 e h')) + x2 (ix2 (0 : Fin 1) h')) * K (ix3 b k h') :=
    funext fun k => Finset.sum_congr rfl fun h' _ => by
      rw [h3, Finset.sum_congr rfl fun e _ => by rw [h0 e]]
  rw [e0]
  refine congrArg (· + x6 (ix2 (0 : Fin 1) d)) (Finset.sum_congr rfl fun h _ => ?_)
  have e4 : (fun k : Fin 4096 => x4 (ix3 (0 : Fin 1) k h)) = fun k : Fin 4096 => Vv (ix3 b k h) := funext fun k => h4 k h
  rw [e4]

/-- The same at any block index y and array index p with those coordinates. -/
theorem body_eq_at (X : S4x4096x512.Idx → EReal) (Wq : S512x512.Idx → EReal) (bq : S1x512.Idx → EReal)
    (K Vv : S4x4096x512.Idx → EReal) (Wo : S512x512.Idx → EReal) (bo : S1x512.Idx → EReal)
    (x0 : S1x512x512.Idx → EReal) (x1 : S512x512.Idx → EReal) (x2 : S1x512.Idx → EReal)
    (x3 x4 : S1x4096x512.Idx → EReal) (x5 : S512x512.Idx → EReal) (x6 : S1x512.Idx → EReal)
    (y : S1x512x512.Idx) (p : S4x4096x512.Idx)
    (h0 : ∀ e : Fin 512, x0 (ix3 (0 : Fin 1) (y 1) e) = X (ix3 (p 0) (p 1) e))
    (h1 : x1 = Wq) (h2 : x2 = bq)
    (h3 : ∀ (k : Fin 4096) (h : Fin 512), x3 (ix3 (0 : Fin 1) k h) = K (ix3 (p 0) k h))
    (h4 : ∀ (k : Fin 4096) (h : Fin 512), x4 (ix3 (0 : Fin 1) k h) = Vv (ix3 (p 0) k h))
    (h5 : x5 = Wo) (h6 : x6 = bo) (hd : (y 2).val = (p 2).val) :
    bodyF x0 x1 x2 x3 x4 x5 x6 y = attnArr X Wq bq K Vv Wo bo p := by
  have hy : y = ix3 (0 : Fin 1) (y 1) (y 2) := funext fun a => by
    match a with
    | ⟨0, _⟩ => exact Fin.ext (by have : (y 0).val < 1 := (y 0).isLt; show (y 0).val = 0; omega)
    | ⟨1, _⟩ => rfl
    | ⟨2, _⟩ => rfl
  have hp : p = ix3 (p 0) (p 1) (y 2) := funext fun a => by
    match a with
    | ⟨0, _⟩ => rfl
    | ⟨1, _⟩ => rfl
    | ⟨2, _⟩ => exact Fin.ext hd.symm
  calc bodyF x0 x1 x2 x3 x4 x5 x6 y
      = bodyF x0 x1 x2 x3 x4 x5 x6 (ix3 (0 : Fin 1) (y 1) (y 2)) := congrArg _ hy
    _ = attnArr X Wq bq K Vv Wo bo (ix3 (p 0) (p 1) (y 2)) := body_eq X Wq bq K Vv Wo bo x0 x1 x2 x3 x4 x5 x6 (y 1) (y 2) (p 0) (p 1) h0 h1 h2 h3 h4 h5 h6
    _ = attnArr X Wq bq K Vv Wo bo p := (congrArg _ hp).symm

/-! ## The index maps, decided over the grid -/

/-- Where each window's block sits at point t, relative to the output window's block (b, i, 0). -/
theorem idx_facts : ∀ t : Fin cfg1.N,
    win1_0.index t (0 : Fin 3) = win1_7.index t (0 : Fin 3) ∧ win1_0.index t (1 : Fin 3) = win1_7.index t (1 : Fin 3)
    ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = win1_7.index t (0 : Fin 3) ∧ win1_3.index t (1 : Fin 3) = 0 ∧ win1_3.index t (2 : Fin 3) = 0
    ∧ win1_4.index t (0 : Fin 3) = win1_7.index t (0 : Fin 3) ∧ win1_4.index t (1 : Fin 3) = 0 ∧ win1_4.index t (2 : Fin 3) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 3) ≤ 3 ∧ win1_7.index t (1 : Fin 3) ≤ 7 ∧ win1_7.index t (2 : Fin 3) = 0 :=
  (by decide +kernel : ∀ t : Fin grid1.N, _)

/-- Every block (b, i, 0) of the result is some point's. -/
theorem idx_onto : ∀ (q0 : Fin 4) (q1 : Fin 8), ∃ t : Fin cfg1.N, win1_7.index t = ![q0.val, q1.val, 0] :=
  (by decide +kernel : ∀ (q0 : Fin 4) (q1 : Fin 8), ∃ t : Fin grid1.N, win1_7.index t = ![q0.val, q1.val, 0])

/-! ## What a point writes back -/

/-- What point t writes back is block t of attnArr of the arrays the region finds, given the body's value on a block. -/
theorem flushed7_eq (c : Dev nD)
    (hb : ∀ t : Fin cfg1.N, outsAt1 V c t = bodyF (iblk1 V c 0 t) (iblk1 V c 1 t) (iblk1 V c 2 t) (iblk1 V c 3 t) (iblk1 V c 4 t) (iblk1 V c 5 t) (iblk1 V c 6 t))
    (t : Fin cfg1.N) :
    (dat1 V c).flushed 7 t = ((cfg1.win 7).blk t).view.read (Elt Ideal)
      (attnArr (V c main_arg0) (V c main_v1) (V c main_v5) (V c main_v10) (V c main_v11) (V c main_v4) (V c main_v8)) := by
  show (cfg1.win 7).cut (grid1.coords t) ((dat1 V c).after 7 t) = _
  rw [after1_7, hb t]
  obtain ⟨f00, f01, f02, f10, f11, f20, f21, f30, f31, f32, f40, f41, f42, f50, f51, f60, f61, g0, g1, g2⟩ := idx_facts t
  funext y
  show bodyF (iblk1 V c 0 t) (iblk1 V c 1 t) (iblk1 V c 2 t) (iblk1 V c 3 t) (iblk1 V c 4 t) (iblk1 V c 5 t) (iblk1 V c 6 t) y
    = attnArr (V c main_arg0) (V c main_v1) (V c main_v5) (V c main_v10) (V c main_v11) (V c main_v4) (V c main_v8)
        (((cfg1.win 7).blk t).view.emb y)
  have hy0 : (y 0).val < 1 := (y 0).isLt
  refine body_eq_at _ _ _ _ _ _ _ _ _ _ _ _ _ _ y _ ?_ ?_ ?_ ?_ ?_ ?_ ?_ ?_
  · intro e
    show V c main_arg0 (((cfg1.win 0).blk t).view.emb (ix3 (0 : Fin 1) (y 1) e)) = V c main_arg0 _
    refine congrArg (V c main_arg0) (funext fun a => Fin.ext ?_)
    match a with
    | ⟨0, _⟩ => show win1_0.index t (0 : Fin 3) * 1 + 1 * 0 = win1_7.index t (0 : Fin 3) * 1 + 1 * (y 0).val; omega
    | ⟨1, _⟩ => show win1_0.index t (1 : Fin 3) * 512 + 1 * (y 1).val = win1_7.index t (1 : Fin 3) * 512 + 1 * (y 1).val; omega
    | ⟨2, _⟩ => show win1_0.index t (2 : Fin 3) * 512 + 1 * e.val = e.val; omega
  · funext z
    show V c main_v1 (((cfg1.win 1).blk t).view.emb z) = V c main_v1 z
    refine congrArg (V c main_v1) (funext fun a => Fin.ext ?_)
    match a with
    | ⟨0, _⟩ => show win1_1.index t (0 : Fin 2) * 512 + 1 * (z 0).val = (z 0).val; omega
    | ⟨1, _⟩ => show win1_1.index t (1 : Fin 2) * 512 + 1 * (z 1).val = (z 1).val; omega
  · funext z
    show V c main_v5 (((cfg1.win 2).blk t).view.emb z) = V c main_v5 z
    refine congrArg (V c main_v5) (funext fun a => Fin.ext ?_)
    match a with
    | ⟨0, _⟩ => show win1_2.index t (0 : Fin 2) * 1 + 1 * (z 0).val = (z 0).val; omega
    | ⟨1, _⟩ => show win1_2.index t (1 : Fin 2) * 512 + 1 * (z 1).val = (z 1).val; omega
  · intro k h
    show V c main_v10 (((cfg1.win 3).blk t).view.emb (ix3 (0 : Fin 1) k h)) = V c main_v10 _
    refine congrArg (V c main_v10) (funext fun a => Fin.ext ?_)
    match a with
    | ⟨0, _⟩ => show win1_3.index t (0 : Fin 3) * 1 + 1 * 0 = win1_7.index t (0 : Fin 3) * 1 + 1 * (y 0).val; omega
    | ⟨1, _⟩ => show win1_3.index t (1 : Fin 3) * 4096 + 1 * k.val = k.val; omega
    | ⟨2, _⟩ => show win1_3.index t (2 : Fin 3) * 512 + 1 * h.val = h.val; omega
  · intro k h
    show V c main_v11 (((cfg1.win 4).blk t).view.emb (ix3 (0 : Fin 1) k h)) = V c main_v11 _
    refine congrArg (V c main_v11) (funext fun a => Fin.ext ?_)
    match a with
    | ⟨0, _⟩ => show win1_4.index t (0 : Fin 3) * 1 + 1 * 0 = win1_7.index t (0 : Fin 3) * 1 + 1 * (y 0).val; omega
    | ⟨1, _⟩ => show win1_4.index t (1 : Fin 3) * 4096 + 1 * k.val = k.val; omega
    | ⟨2, _⟩ => show win1_4.index t (2 : Fin 3) * 512 + 1 * h.val = h.val; omega
  · funext z
    show V c main_v4 (((cfg1.win 5).blk t).view.emb z) = V c main_v4 z
    refine congrArg (V c main_v4) (funext fun a => Fin.ext ?_)
    match a with
    | ⟨0, _⟩ => show win1_5.index t (0 : Fin 2) * 512 + 1 * (z 0).val = (z 0).val; omega
    | ⟨1, _⟩ => show win1_5.index t (1 : Fin 2) * 512 + 1 * (z 1).val = (z 1).val; omega
  · funext z
    show V c main_v8 (((cfg1.win 6).blk t).view.emb z) = V c main_v8 z
    refine congrArg (V c main_v8) (funext fun a => Fin.ext ?_)
    match a with
    | ⟨0, _⟩ => show win1_6.index t (0 : Fin 2) * 1 + 1 * (z 0).val = (z 0).val; omega
    | ⟨1, _⟩ => show win1_6.index t (1 : Fin 2) * 512 + 1 * (z 1).val = (z 1).val; omega
  · show (y 2).val = win1_7.index t (2 : Fin 3) * 512 + 1 * (y 2).val; omega

/-! ## The blocks tile the result -/

/-- An index of the result is in point t's block iff each coordinate is in the block's range on its axis. -/
theorem mem_blk7 (t : Fin cfg1.N) (i : S4x4096x512.Idx) :
    i ∈ ((cfg1.win 7).blk t).view.set ↔ ∀ a : Fin 3, win1_7.index t a * S1x512x512.size a ≤ (i a).val
      ∧ (i a).val < win1_7.index t a * S1x512x512.size a + S1x512x512.size a := by
  show i ∈ ((View.whole main_v12).slice (win1_7.rect t)).set ↔ _
  rw [View.set_slice_whole, Rect.mem_set_unit]
  exact Iff.rfl

/-- Every index (b, s, d) of the result is in the block of the point with block coordinates (b, s / 512, 0). -/
theorem cover7 (i : S4x4096x512.Idx) :
    ∃ t : Fin cfg1.N, (cfg1.win 7).flush t = true ∧ i ∈ ((cfg1.win 7).blk t).view.set := by
  have hi0 : (i 0).val < 4 := (i 0).isLt
  have hi1 : (i 1).val < 4096 := (i 1).isLt
  have hi2 : (i 2).val < 512 := (i 2).isLt
  obtain ⟨t, ht⟩ := idx_onto ⟨(i 0).val, hi0⟩ ⟨(i 1).val / 512, by omega⟩
  have q0 : win1_7.index t (0 : Fin 3) = (i 0).val := congrFun ht 0
  have q1 : win1_7.index t (1 : Fin 3) = (i 1).val / 512 := congrFun ht 1
  have q2 : win1_7.index t (2 : Fin 3) = 0 := congrFun ht 2
  refine ⟨t, flush1_7 t, ?_⟩
  rw [mem_blk7]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 512 ≤ (i 1).val ∧ (i 1).val < win1_7.index t (1 : Fin 3) * 512 + 512; omega
  | ⟨2, _⟩ => show win1_7.index t (2 : Fin 3) * 512 ≤ (i 2).val ∧ (i 2).val < win1_7.index t (2 : Fin 3) * 512 + 512; omega

/-! ## The array after the region -/

/-- The result array after the region's write-backs is attnArr of the arrays the region finds, given the body's
    value on a block. -/
theorem final7 (c : Dev nD)
    (hb : ∀ t : Fin cfg1.N, outsAt1 V c t = Cert.KernelIdeal.Spec.bodyF (iblk1 V c 0 t) (iblk1 V c 1 t) (iblk1 V c 2 t) (iblk1 V c 3 t) (iblk1 V c 4 t) (iblk1 V c 5 t) (iblk1 V c 6 t)) :
    (dat1 V c).arrAt 7 cfg1.N = Cert.KernelIdeal.Spec.attnArr (V c main_arg0) (V c main_v1) (V c main_v5) (V c main_v10) (V c main_v11) (V c main_v4) (V c main_v8) :=
  (dat1 V c).arrAt_eq_of_cover 7 _ (fun t _ => flushed7_eq V c hb t) fun i => cover7 i

end Cert.KernelIdeal.AttnArr

end
-- ==== Proof.Steps.lean ====
/-
  One chunk of the chunked softmax recurrence as operations on whole vectors, exactly as the attention kernel's body
  spells it: the scores of 512 query rows against a chunk of 1024 keys, the new running maximum per row, the
  rescaling factor `exp (m_old - m_new)`, the chunk's weights `exp (score - m_new)`, and the new running denominator
  and numerator.  Each is then read at an index: row `r` of the new maximum is the old one joined with the fold of
  `max` over the row's 1024 scores, and so on — the per-row recurrence of `Cert.Attention`.
-/
import proofs.«116658_j4844723110037_2_alg».proof.Proof.Dots
import proofs.«116658_j4844723110037_2_alg».proof.Proof.Attention
import Idealize.ShloMosaic.Lib.Pipeline.Value
import Idealize.ShloMosaic.Lib.ValueLayout

noncomputable section

namespace Cert.KernelIdeal.Steps

open Cert.KernelIdeal Cert.KernelIdeal.Gen Idealize.ShloMosaic Idealize.ShloMosaic.ValueIdx

/-- The scores of the 512 query rows `q` against the chunk's 1024 keys `kc`: `q · kcᵀ`. -/
def sc (q : FVec Ideal S512x512 .bf16) (kc : FVec Ideal S1024x512 .bf16) : FVec Ideal S512x1024 .f32 :=
  matmul dot_S512x512_S1024x512_S512x1024_1_1_0_0_n_n none q kc (constant S512x1024 .f32 0x00000000#32)

/-- The running maximum per row after the chunk. -/
def mN (q : FVec Ideal S512x512 .bf16) (kc : FVec Ideal S1024x512 .bf16) (mP : FVec Ideal S512x1 .f32) : FVec Ideal S512x1 .f32 :=
  maximumf mP (shapeCast S512x1 (multiReduction .maximumf [1] S512 (sc q kc) 0xFF800000#32 reduces_S512x1024_S512 (.inl rfl) rfl) shapeCasts_S512_S512x1)

/-- The factor that rescales the old denominator and numerator to the new maximum. -/
def al (q : FVec Ideal S512x512 .bf16) (kc : FVec Ideal S1024x512 .bf16) (mP : FVec Ideal S512x1 .f32) : FVec Ideal S512x1 .f32 :=
  exp (subf mP (mN q kc mP))

/-- The chunk's weights relative to the new maximum. -/
def pp (q : FVec Ideal S512x512 .bf16) (kc : FVec Ideal S1024x512 .bf16) (mP : FVec Ideal S512x1 .f32) : FVec Ideal S512x1024 .f32 :=
  exp (subf (sc q kc) (broadcastTo S512x1024 (mN q kc mP) broadcasts_S512x1_S512x1024))

/-- The running denominator per row after the chunk. -/
def lN (q : FVec Ideal S512x512 .bf16) (kc : FVec Ideal S1024x512 .bf16) (mP lP : FVec Ideal S512x1 .f32) : FVec Ideal S512x1 .f32 :=
  addf (mulf (al q kc mP) lP)
    (shapeCast S512x1 (multiReduction .add [1] S512 (pp q kc mP) 0x00000000#32 reduces_S512x1024_S512 (.inl rfl) rfl) shapeCasts_S512_S512x1)

/-- The running numerator after the chunk, whose values are `vc`. -/
def aN (q : FVec Ideal S512x512 .bf16) (kc vc : FVec Ideal S1024x512 .bf16) (mP : FVec Ideal S512x1 .f32) (aP : FVec Ideal S512x512 .f32) :
    FVec Ideal S512x512 .f32 :=
  addf (mulf (broadcastTo S512x512 (al q kc mP) broadcasts_S512x1_S512x512) aP)
    (matmul dot_S512x1024_S1024x512_S512x512_1_0_0_1_n_n none (truncf .bf16 (pp q kc mP) bitsLt_bf16_f32) vc (constant S512x512 .f32 0x00000000#32))

end Cert.KernelIdeal.Steps

end
-- ==== Proof.Body.lean ====
/-
  The attention kernel's body, read back from the run of its printed text: what it leaves in the output block is the
  final projection `k1_pay1` of the numerator and denominator that four successive chunk steps (`Steps.mN`, `Steps.lN`,
  `Steps.aN`) build from the initial `-∞`, `0`, `0`, each step reading 1024 rows of the keys and of the values.
-/
import proofs.«116658_j4844723110037_2_alg».proof.Proof.Gen.KernelIdeal.Frame
import proofs.«116658_j4844723110037_2_alg».proof.Proof.Steps
import Idealize.ShloMosaic.Lib.Pipeline.Value
import Idealize.ShloMosaic.Lib.Tactic

set_option maxRecDepth 16384

noncomputable section

namespace Cert.KernelIdeal.Body

open Cert.KernelIdeal Cert.KernelIdeal.Gen Cert.KernelIdeal.Steps
open Idealize.ShloMosaic Idealize.ShloMosaic.TcCoe Idealize.SL.Sem Idealize.ShloMosaic.Tactic

theorem hz2 : (![0, 0] : Fin 2 → Nat) = fun _ => 0 := funext fun a => by fin_cases a <;> rfl
theorem hz3 : (![0, 0, 0] : Fin 3 → Nat) = fun _ => 0 := funext fun a => by fin_cases a <;> rfl

section Payloads

variable (q : FVec Ideal S512x512 .bf16) (kc vc : FVec Ideal S1024x512 .bf16) (mP lP : FVec Ideal S512x1 .f32) (aP : FVec Ideal S512x512 .f32)
variable (rk rv : FVec Ideal S1x1024x512 .bf16)

/-! Each chunk's printed payloads are the chunk step (the first chunk's take the zero accumulator as an argument, the
    last chunk's re-shape their raw key and value rows themselves). -/
theorem pay12_eq : k1_pay12 q kc (constant S512x1024 .f32 0x00000000#32) mP lP = lN q kc mP lP := by
  unfold k1_pay12; simp only [shapeCast_self]; rfl
theorem pay13_eq : k1_pay13 q kc vc (constant S512x1024 .f32 0x00000000#32) mP aP = aN q kc vc mP aP := by
  unfold k1_pay13; simp only [shapeCast_self]; rfl
theorem pay14_eq : k1_pay14 q kc (constant S512x1024 .f32 0x00000000#32) mP = mN q kc mP := by
  unfold k1_pay14; simp only [shapeCast_self]; rfl
theorem pay20_eq : k1_pay20 q kc mP lP = lN q kc mP lP := by
  unfold k1_pay20; simp only [shapeCast_self]; rfl
theorem pay21_eq : k1_pay21 q kc rv mP aP = aN q kc (shapeCast S1024x512 rv shapeCasts_S1x1024x512_S1024x512) mP aP := by
  unfold k1_pay21; simp only [shapeCast_self]; rfl
theorem pay22_eq : k1_pay22 q kc mP = mN q kc mP := by
  unfold k1_pay22; simp only [shapeCast_self]; rfl
theorem pay28_eq : k1_pay28 q kc mP lP = lN q kc mP lP := by
  unfold k1_pay28; simp only [shapeCast_self]; rfl
theorem pay29_eq : k1_pay29 q kc rv mP aP = aN q kc (shapeCast S1024x512 rv shapeCasts_S1x1024x512_S1024x512) mP aP := by
  unfold k1_pay29; simp only [shapeCast_self]; rfl
theorem pay30_eq : k1_pay30 q kc mP = mN q kc mP := by
  unfold k1_pay30; simp only [shapeCast_self]; rfl
theorem pay35_eq : k1_pay35 q rk mP lP = lN q (shapeCast S1024x512 rk shapeCasts_S1x1024x512_S1024x512) mP lP := by
  unfold k1_pay35; simp only [shapeCast_self]; rfl
theorem pay36_eq : k1_pay36 q rk rv mP aP
    = aN q (shapeCast S1024x512 rk shapeCasts_S1x1024x512_S1024x512) (shapeCast S1024x512 rv shapeCasts_S1x1024x512_S1024x512) mP aP := by
  unfold k1_pay36; simp only [shapeCast_self]; rfl
theorem pay6_eq : k1_pay6 rk = shapeCast S1024x512 rk shapeCasts_S1x1024x512_S1024x512 := rfl
theorem pay7_eq : k1_pay7 rk = shapeCast S1024x512 rk shapeCasts_S1x1024x512_S1024x512 := rfl
theorem pay15_eq : k1_pay15 rk = shapeCast S1024x512 rk shapeCasts_S1x1024x512_S1024x512 := rfl
theorem pay23_eq : k1_pay23 rk = shapeCast S1024x512 rk shapeCasts_S1x1024x512_S1024x512 := rfl

end Payloads

section Chain

variable (x0 : Vec Ideal S1x512x512 .f32) (x1 : Vec Ideal S512x512 .bf16) (x2 : Vec Ideal S1x512 .f32) (x3 : Vec Ideal S1x4096x512 .bf16) (x4 : Vec Ideal S1x4096x512 .bf16) (x5 : Vec Ideal S512x512 .bf16) (x6 : Vec Ideal S1x512 .f32)

/-- The 1024 key (or value) rows from row `o` on, as a matrix. -/
def chunk (x : Vec Ideal S1x4096x512 .bf16) (o : Nat) (inb : ∀ a, (![0, o, 0] : Fin 3 → Nat) a + S1x1024x512.size a ≤ S1x4096x512.size a) :
    FVec Ideal S1024x512 .bf16 :=
  shapeCast S1024x512 (View.ld x (Rect.unit (s := S1x4096x512) ![0, o, 0] S1x1024x512.size inb)) shapeCasts_S1x1024x512_S1024x512

theorem inb0 : ∀ a, (![0, 0, 0] : Fin 3 → Nat) a + S1x1024x512.size a ≤ S1x4096x512.size a := by decide
theorem inb1 : ∀ a, (![0, 1024, 0] : Fin 3 → Nat) a + S1x1024x512.size a ≤ S1x4096x512.size a := by decide
theorem inb2 : ∀ a, (![0, 2048, 0] : Fin 3 → Nat) a + S1x1024x512.size a ≤ S1x4096x512.size a := by decide
theorem inb3 : ∀ a, (![0, 3072, 0] : Fin 3 → Nat) a + S1x1024x512.size a ≤ S1x4096x512.size a := by decide

/-- The projected queries of the block. -/
abbrev Q : FVec Ideal S512x512 .bf16 := k1_pay2 x0 x1 x2
abbrev M1 : FVec Ideal S512x1 .f32 := mN (Q x0 x1 x2) (chunk x3 0 inb0) k1_pay3
abbrev L1 : FVec Ideal S512x1 .f32 := lN (Q x0 x1 x2) (chunk x3 0 inb0) k1_pay3 k1_pay4
abbrev A1 : FVec Ideal S512x512 .f32 := aN (Q x0 x1 x2) (chunk x3 0 inb0) (chunk x4 0 inb0) k1_pay3 k1_pay5
abbrev M2 : FVec Ideal S512x1 .f32 := mN (Q x0 x1 x2) (chunk x3 1024 inb1) (M1 x0 x1 x2 x3)
abbrev L2 : FVec Ideal S512x1 .f32 := lN (Q x0 x1 x2) (chunk x3 1024 inb1) (M1 x0 x1 x2 x3) (L1 x0 x1 x2 x3)
abbrev A2 : FVec Ideal S512x512 .f32 := aN (Q x0 x1 x2) (chunk x3 1024 inb1) (chunk x4 1024 inb1) (M1 x0 x1 x2 x3) (A1 x0 x1 x2 x3 x4)
abbrev M3 : FVec Ideal S512x1 .f32 := mN (Q x0 x1 x2) (chunk x3 2048 inb2) (M2 x0 x1 x2 x3)
abbrev L3 : FVec Ideal S512x1 .f32 := lN (Q x0 x1 x2) (chunk x3 2048 inb2) (M2 x0 x1 x2 x3) (L2 x0 x1 x2 x3)
abbrev A3 : FVec Ideal S512x512 .f32 := aN (Q x0 x1 x2) (chunk x3 2048 inb2) (chunk x4 2048 inb2) (M2 x0 x1 x2 x3) (A2 x0 x1 x2 x3 x4)
abbrev L4 : FVec Ideal S512x1 .f32 := lN (Q x0 x1 x2) (chunk x3 3072 inb3) (M3 x0 x1 x2 x3) (L3 x0 x1 x2 x3)
abbrev A4 : FVec Ideal S512x512 .f32 := aN (Q x0 x1 x2) (chunk x3 3072 inb3) (chunk x4 3072 inb3) (M3 x0 x1 x2 x3) (A3 x0 x1 x2 x3 x4)

set_option maxHeartbeats 1000000 in
/-- What the body leaves in the output block: the final projection of the fourth step's numerator and denominator. -/
theorem out_eq (c : Dev nD) (i : grid1.Coords) (arg2 : Memref sig .tc .vmem S1x512x512 .f32) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512x512 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x512 .f32) (harg12 : arg12.IsWhole) :
    out1_A_7 (F := Ideal) c i arg2 harg2 arg3 harg3 arg4 harg4 arg5 harg5 arg6 harg6 arg7 harg7 arg8 harg8 arg9 harg9 arg10 harg10 arg11 harg11 arg12 harg12 x0 x1 x2 x3 x4 x5 x6
      = k1_pay1 (A4 x0 x1 x2 x3 x4) (L4 x0 x1 x2 x3) x5 x6 := by
  unfold out1_A_7
  rw [View.read_writes_eq_canon _ _ _ (cover1_A_7 c i arg2 harg2 arg3 harg3 arg4 harg4 arg5 harg5 arg6 harg6 arg7 harg7 arg8 harg8 arg9 harg9 arg10 harg10 arg11 harg11 arg12 harg12 x0 x1 x2 x3 x4 x5 x6)]
  unfold kernelRun1_A
  dsimp only
  simp only [kernelRun1_A.sl.HS0_1, kernelRun1_A.sl.HS0_2, kernelRun1_A.sl.HS0_3, kernelRun1_A.sl.HS0_4, kernelRun1_A.sl.HS1_1, kernelRun1_A.sl.HS1_2, kernelRun1_A.sl.HS1_3, kernelRun1_A.sl.HS1_4, kernelRun1_A.sl.HS1_5, kernelRun1_A.sl.HS2_1, kernelRun1_A.sl.HS2_2, kernelRun1_A.sl.HS2_3, kernelRun1_A.sl.HS2_4, kernelRun1_A.sl.HS2_5, kernelRun1_A.sl.cst_19, kernelRun1_A.sl.r, kernelRun1_A.sl.r_1, kernelRun1_A.sl.r_2, kernelRun1_A.sl.r_3, kernelRun1_A.sl.r_4, kernelRun1_A.sl.v108, kernelRun1_A.sl.v117, kernelRun1_A.sl.v125, kernelRun1_A.sl.v146, kernelRun1_A.sl.v155, kernelRun1_A.sl.v163, kernelRun1_A.sl.v175, kernelRun1_A.sl.v176, kernelRun1_A.sl.v32, kernelRun1_A.sl.v41, kernelRun1_A.sl.v49, kernelRun1_A.sl.v70, kernelRun1_A.sl.v79, kernelRun1_A.sl.v87, View.readCov_cons_toLoadRect, View.readCov_unit_zero]
  rw [View.canon_unit_zero hz3]
  simp only [View.readAt_eq_ld, harg2.read_unread, harg3.read_unread, harg4.read_unread, harg5.read_unread, harg6.read_unread,
    harg7.read_unread, harg8.read_unread, View.ld_unit_zero (S := S1x512x512) hz3, View.ld_unit_zero (S := S512x512) hz2,
    View.ld_unit_zero (S := S1x512) hz2]
  simp only [pay36_eq, pay35_eq, pay30_eq, pay29_eq, pay28_eq, pay22_eq, pay21_eq, pay20_eq, pay14_eq, pay13_eq, pay12_eq,
    pay6_eq, pay7_eq, pay15_eq, pay23_eq]
  rfl

end Chain

end Cert.KernelIdeal.Body

end
-- ==== Proof.StepsAt.lean ====
import proofs.«116658_j4844723110037_2_alg».proof.Proof.Steps

/-
  One chunk of the chunked softmax recurrence read at an index: the whole-vector operations of the step, at a row
  `r` (and a key `j` of the chunk, or an output column `h`), are the per-row recurrence on extended reals.
-/

noncomputable section

namespace Cert.KernelIdeal.Steps

open Cert.KernelIdeal Cert.KernelIdeal.Gen Idealize.ShloMosaic Idealize.ShloMosaic.ValueIdx

/-! ## A trailing unit axis: a column added by a shape cast, a column broadcast along its rows -/

section Layout

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The source index of a row reduction: row `r` of the result with the dropped coordinate `k` put back. -/
theorem lift_row (r : Fin 512) (k : Fin 1024) : reduces_S512x1024_S512.lift (ix1 r) k = ix2 r k :=
  funext fun a => Fin.ext (by
    match a with
    | ⟨0, _⟩ => rfl
    | ⟨1, _⟩ => rfl)

/-- The word of `-∞`. -/
theorem ofBits_f32_neg_inf : Ideal.ofBits .f32 0xFF800000#32 = ⊥ := by simp [Ideal.ofBits, Ideal.ieee]

/-! ## The two row reductions -/

/-- A row's maximum, folded from `-∞` over the row's 1024 entries. -/
theorem rowMax_apply (src : FVec Ideal S512x1024 .f32) (r : Fin 512) :
    multiReduction (F := Ideal) .maximumf [1] S512 src 0xFF800000#32 reduces_S512x1024_S512 (.inl rfl) rfl (ix1 r)
      = (Finset.univ : Finset (Fin 1024)).fold max ⊥ fun j => src (ix2 r j) := by
  refine (Ideal.multiReduction_maximumf_single src _ reduces_S512x1024_S512 _ _ (ix1 r)).trans ?_
  rw [Ideal.ofBits_def, ofBits_f32_neg_inf]
  refine Finset.fold_congr fun k _ => ?_
  exact congrArg src (lift_row r k)

/-- A row's sum over its 1024 entries. -/
theorem rowSum_apply (src : FVec Ideal S512x1024 .f32) (r : Fin 512) :
    multiReduction (F := Ideal) .add [1] S512 src 0x00000000#32 reduces_S512x1024_S512 (.inl rfl) rfl (ix1 r)
      = ∑ j : Fin 1024, src (ix2 r j) := by
  refine (Ideal.multiReduction_add_single src _ reduces_S512x1024_S512 _ _ (ix1 r)).trans ?_
  refine Finset.sum_congr rfl fun k _ => ?_
  exact congrArg src (lift_row r k)

/-! ## The step read at an index -/

section Step

variable (q : FVec Ideal S512x512 .bf16) (kc vc : FVec Ideal S1024x512 .bf16) (mP lP : FVec Ideal S512x1 .f32)
  (aP : FVec Ideal S512x512 .f32)

/-- The score of query row `r` against key `j` of the chunk. -/
theorem sc_apply (r : Fin 512) (j : Fin 1024) : sc q kc (ix2 r j) = ∑ h : Fin 512, q (ix2 r h) * kc (ix2 j h) :=
  Dots.dot_qk q kc r j

/-- The new running maximum of row `r`: the old one joined with the maximum of the row's scores. -/
theorem mN_apply (r : Fin 512) :
    mN q kc mP (ix2 r (0 : Fin 1))
      = max (mP (ix2 r (0 : Fin 1))) ((Finset.univ : Finset (Fin 1024)).fold max ⊥ fun j => sc q kc (ix2 r j)) := by
  unfold mN
  rw [maximumf_apply]
  refine congrArg (max (mP (ix2 r (0 : Fin 1)))) ?_
  exact (shapeCast_a_a1_apply _ shapeCasts_S512_S512x1 r 0).trans (rowMax_apply (sc q kc) r)

/-- The rescaling factor of row `r`. -/
theorem al_apply (r : Fin 512) :
    al q kc mP (ix2 r (0 : Fin 1)) = Ideal.exp (mP (ix2 r (0 : Fin 1)) - mN q kc mP (ix2 r (0 : Fin 1))) := rfl

/-- The weight of key `j` of the chunk in row `r`. -/
theorem pp_apply (r : Fin 512) (j : Fin 1024) :
    pp q kc mP (ix2 r j) = Ideal.exp (sc q kc (ix2 r j) - mN q kc mP (ix2 r (0 : Fin 1))) := by
  unfold pp
  exact congrArg (fun z => Ideal.exp (sc q kc (ix2 r j) - z))
    (broadcastTo_a1_ab_apply (mN q kc mP) broadcasts_S512x1_S512x1024 r j)

/-- The new running denominator of row `r`. -/
theorem lN_apply (r : Fin 512) :
    lN q kc mP lP (ix2 r (0 : Fin 1))
      = Ideal.exp (mP (ix2 r (0 : Fin 1)) - mN q kc mP (ix2 r (0 : Fin 1))) * lP (ix2 r (0 : Fin 1))
        + ∑ j : Fin 1024, Ideal.exp (sc q kc (ix2 r j) - mN q kc mP (ix2 r (0 : Fin 1))) := by
  unfold lN
  rw [addf_apply, mulf_apply]
  refine congrArg₂ (· + ·) rfl ?_
  refine (shapeCast_a_a1_apply _ shapeCasts_S512_S512x1 r 0).trans ?_
  refine (rowSum_apply (pp q kc mP) r).trans ?_
  exact Finset.sum_congr rfl fun j _ => pp_apply q kc mP r j

/-- The new running numerator of row `r` at output column `h`. -/
theorem aN_apply (r : Fin 512) (h : Fin 512) :
    aN q kc vc mP aP (ix2 r h)
      = Ideal.exp (mP (ix2 r (0 : Fin 1)) - mN q kc mP (ix2 r (0 : Fin 1))) * aP (ix2 r h)
        + ∑ j : Fin 1024, Ideal.exp (sc q kc (ix2 r j) - mN q kc mP (ix2 r (0 : Fin 1))) * vc (ix2 j h) := by
  unfold aN
  rw [addf_apply, mulf_apply]
  refine congrArg₂ (· + ·)
    (congrArg (· * aP (ix2 r h))
      ((broadcastTo_a1_ab_apply (al q kc mP) broadcasts_S512x1_S512x512 r h).trans (al_apply q kc mP r))) ?_
  refine (Dots.dot_pv _ vc r h).trans ?_
  refine Finset.sum_congr rfl fun j _ => ?_
  rw [truncf_apply, pp_apply]

end Step

end Cert.KernelIdeal.Steps

end
-- ==== Proof.BodyAt.lean ====
/-
  The attention kernel's body at an index.  Row `r`, column `d` of the output block is
  `(∑ h, a₄ r h / l₄ r * Wo h d) + bo d`, where `a₄`, `l₄` are the numerator and denominator after the four chunk
  steps.  For a fixed row the steps are the per-row recurrence of `Cert.Attention` on the row's 4096 scores
  `S k = ∑ h, q r h * K k h` (chunk `c` holds the keys `1024 c … 1024 c + 1023`) and, for a fixed column `h`, on the
  values `V k h`: so the quotient is `Cert.Attention.onlineRow`.
-/
import proofs.«116658_j4844723110037_2_alg».proof.Proof.Body
import proofs.«116658_j4844723110037_2_alg».proof.Proof.StepsAt
import proofs.«116658_j4844723110037_2_alg».proof.Proof.KernelSpec
import Idealize.ShloMosaic.Lib.ValueLayout

set_option maxRecDepth 16384

noncomputable section

namespace Cert.KernelIdeal.Body

open Cert.KernelIdeal Cert.KernelIdeal.Gen Cert.KernelIdeal.Steps Cert.KernelIdeal.Spec
open Idealize.ShloMosaic Idealize.ShloMosaic.TcCoe Idealize.SL.Sem Idealize.ShloMosaic.ValueIdx

/-! ## The layout and the two projections at an index -/

/-- Row `j`, column `h` of the chunk starting at row `o` is row `o + j` of the batch's array. -/
theorem chunk_apply (x : Vec Ideal S1x4096x512 .bf16) (o : Nat) (inb) (j : Fin 1024) (h : Fin 512) (ho : o + 1024 ≤ 4096) :
    chunk x o inb (ix2 j h) = x (ix3 (0 : Fin 1) ⟨o + j.val, by have := j.isLt; omega⟩ h) := by
  unfold chunk
  rw [shapeCast_1ab_ab_apply]
  show x _ = x _
  congr 1
  funext a
  apply Fin.ext
  match a with
  | ⟨0, _⟩ => rfl
  | ⟨1, _⟩ => show o + 1 * j.val = o + j.val; omega
  | ⟨2, _⟩ => show 0 + 1 * h.val = h.val; omega

/-- The projected queries: `x0 · x1 + x2`. -/
theorem Q_apply (x0 : Vec Ideal S1x512x512 .f32) (x1 : Vec Ideal S512x512 .bf16) (x2 : Vec Ideal S1x512 .f32) (r h : Fin 512) :
    Q x0 x1 x2 (ix2 r h) = qrow x0 x1 x2 r h := by
  unfold qrow
  show k1_pay2 x0 x1 x2 (ix2 r h) = _
  unfold k1_pay2
  simp only [shapeCast_self]
  rw [truncf_apply, addf_apply, Dots.dot_sq, broadcastTo_1b_ab_apply]
  congr 1
  refine Finset.sum_congr rfl fun d _ => ?_
  rw [truncf_apply, shapeCast_1ab_ab_apply]

/-- The final projection: the quotient of numerator and denominator, times the output weights, plus the bias. -/
theorem pay1_apply (A : FVec Ideal S512x512 .f32) (Lv : FVec Ideal S512x1 .f32) (w5 : Vec Ideal S512x512 .bf16) (w6 : Vec Ideal S1x512 .f32)
    (u : Fin 1) (r d : Fin 512) :
    k1_pay1 A Lv w5 w6 (ix3 u r d)
      = (∑ h : Fin 512, Ideal.div (A (ix2 r h)) (Lv (ix2 r (0 : Fin 1))) * w5 (ix2 h d)) + w6 (ix2 (0 : Fin 1) d) := by
  unfold k1_pay1
  simp only [shapeCast_self]
  rw [shapeCast_ab_1ab_apply, addf_apply, Dots.dot_sq, broadcastTo_1b_ab_apply]
  congr 1
  refine Finset.sum_congr rfl fun h _ => ?_
  rw [truncf_apply, divf_apply, broadcastTo_a1_ab_apply]

theorem pay3_apply (r : Fin 512) : (k1_pay3 : FVec Ideal S512x1 .f32) (ix2 r (0 : Fin 1)) = ⊥ := by
  unfold k1_pay3
  simp only [shapeCast_self]
  show Ideal.ofBits .f32 0xFF800000#32 = ⊥
  exact ofBits_f32_neg_inf

theorem pay4_apply (r : Fin 512) : (k1_pay4 : FVec Ideal S512x1 .f32) (ix2 r (0 : Fin 1)) = 0 := by
  unfold k1_pay4
  simp only [shapeCast_self]
  show Ideal.ofBits .f32 0x00000000#32 = 0
  exact Ideal.ofBits_zero_f32

theorem pay5_apply (r h : Fin 512) : (k1_pay5 : FVec Ideal S512x512 .f32) (ix2 r h) = 0 := by
  unfold k1_pay5
  simp only [shapeCast_self]
  show Ideal.ofBits .f32 0x00000000#32 = 0
  exact Ideal.ofBits_zero_f32

/-! ## One chunk step on a row is the per-row recurrence -/

section Row

variable (q : FVec Ideal S512x512 .bf16) (x3 x4 : Vec Ideal S1x4096x512 .bf16) (r : Fin 512)

/-- Row `r`'s score against key `k` of the batch. -/
def S : Fin 4096 → EReal := fun k => ∑ h' : Fin 512, q (ix2 r h') * x3 (ix3 (0 : Fin 1) k h')

theorem sc_chunk (c : Fin 4) (o : Nat) (ho : o = 1024 * c.val) (inb) (j : Fin 1024) :
    sc q (chunk x3 o inb) (ix2 r j) = S q x3 r (Cert.Attention.key c j) := by
  have hc := c.isLt
  rw [sc_apply]
  unfold S
  refine Finset.sum_congr rfl fun h' _ => ?_
  rw [chunk_apply x3 o inb j h' (by omega)]
  congr 2
  funext a
  apply Fin.ext
  match a with
  | ⟨0, _⟩ => rfl
  | ⟨1, _⟩ => show o + j.val = 1024 * c.val + j.val; omega
  | ⟨2, _⟩ => rfl

theorem step_m (c : Fin 4) (o : Nat) (ho : o = 1024 * c.val) (inb) (mP : FVec Ideal S512x1 .f32) :
    mN q (chunk x3 o inb) mP (ix2 r (0 : Fin 1)) = Cert.Attention.stepM (S q x3 r) (mP (ix2 r (0 : Fin 1))) c := by
  rw [mN_apply]
  unfold Cert.Attention.stepM
  congr 1
  exact Finset.fold_congr fun j _ => sc_chunk q x3 r c o ho inb j

theorem step_l (c : Fin 4) (o : Nat) (ho : o = 1024 * c.val) (inb) (mP lP : FVec Ideal S512x1 .f32) :
    lN q (chunk x3 o inb) mP lP (ix2 r (0 : Fin 1))
      = Cert.Attention.stepL (S q x3 r) (mP (ix2 r (0 : Fin 1))) (lP (ix2 r (0 : Fin 1))) c := by
  rw [lN_apply, step_m q x3 r c o ho inb mP]
  unfold Cert.Attention.stepL
  congr 1
  refine Finset.sum_congr rfl fun j _ => ?_
  rw [sc_chunk q x3 r c o ho inb j]

theorem step_a (c : Fin 4) (o : Nat) (ho : o = 1024 * c.val) (inb) (mP : FVec Ideal S512x1 .f32) (aP : FVec Ideal S512x512 .f32) (h : Fin 512) :
    aN q (chunk x3 o inb) (chunk x4 o inb) mP aP (ix2 r h)
      = Cert.Attention.stepA (S q x3 r) (fun k => x4 (ix3 (0 : Fin 1) k h)) (mP (ix2 r (0 : Fin 1))) (aP (ix2 r h)) c := by
  have hc := c.isLt
  rw [aN_apply, step_m q x3 r c o ho inb mP]
  unfold Cert.Attention.stepA
  congr 1
  refine Finset.sum_congr rfl fun j _ => ?_
  rw [sc_chunk q x3 r c o ho inb j, chunk_apply x4 o inb j h (by omega)]
  congr 2
  funext a
  apply Fin.ext
  match a with
  | ⟨0, _⟩ => rfl
  | ⟨1, _⟩ => show o + j.val = 1024 * c.val + j.val; omega
  | ⟨2, _⟩ => rfl

end Row

/-! ## The four steps -/

section Four

variable (x0 : Vec Ideal S1x512x512 .f32) (x1 : Vec Ideal S512x512 .bf16) (x2 : Vec Ideal S1x512 .f32) (x3 : Vec Ideal S1x4096x512 .bf16) (x4 : Vec Ideal S1x4096x512 .bf16) (x5 : Vec Ideal S512x512 .bf16) (x6 : Vec Ideal S1x512 .f32) (r : Fin 512)

local notation "Sr" => S (Q x0 x1 x2) x3 r

theorem M1_row : M1 x0 x1 x2 x3 (ix2 r (0 : Fin 1)) = Cert.Attention.m1 Sr := by
  show mN (Q x0 x1 x2) (chunk x3 0 inb0) k1_pay3 (ix2 r (0 : Fin 1)) = _
  rw [step_m (Q x0 x1 x2) x3 r 0 0 rfl inb0, pay3_apply]; rfl
theorem M2_row : M2 x0 x1 x2 x3 (ix2 r (0 : Fin 1)) = Cert.Attention.m2 Sr := by
  show mN (Q x0 x1 x2) (chunk x3 1024 inb1) (M1 x0 x1 x2 x3) (ix2 r (0 : Fin 1)) = _
  rw [step_m (Q x0 x1 x2) x3 r 1 1024 rfl inb1, M1_row]; rfl
theorem M3_row : M3 x0 x1 x2 x3 (ix2 r (0 : Fin 1)) = Cert.Attention.m3 Sr := by
  show mN (Q x0 x1 x2) (chunk x3 2048 inb2) (M2 x0 x1 x2 x3) (ix2 r (0 : Fin 1)) = _
  rw [step_m (Q x0 x1 x2) x3 r 2 2048 rfl inb2, M2_row]; rfl

theorem L1_row : L1 x0 x1 x2 x3 (ix2 r (0 : Fin 1)) = Cert.Attention.l1 Sr := by
  show lN (Q x0 x1 x2) (chunk x3 0 inb0) k1_pay3 k1_pay4 (ix2 r (0 : Fin 1)) = _
  rw [step_l (Q x0 x1 x2) x3 r 0 0 rfl inb0, pay3_apply, pay4_apply]; rfl
theorem L2_row : L2 x0 x1 x2 x3 (ix2 r (0 : Fin 1)) = Cert.Attention.l2 Sr := by
  show lN (Q x0 x1 x2) (chunk x3 1024 inb1) (M1 x0 x1 x2 x3) (L1 x0 x1 x2 x3) (ix2 r (0 : Fin 1)) = _
  rw [step_l (Q x0 x1 x2) x3 r 1 1024 rfl inb1, M1_row, L1_row]; rfl
theorem L3_row : L3 x0 x1 x2 x3 (ix2 r (0 : Fin 1)) = Cert.Attention.l3 Sr := by
  show lN (Q x0 x1 x2) (chunk x3 2048 inb2) (M2 x0 x1 x2 x3) (L2 x0 x1 x2 x3) (ix2 r (0 : Fin 1)) = _
  rw [step_l (Q x0 x1 x2) x3 r 2 2048 rfl inb2, M2_row, L2_row]; rfl
theorem L4_row : L4 x0 x1 x2 x3 (ix2 r (0 : Fin 1)) = Cert.Attention.l4 Sr := by
  show lN (Q x0 x1 x2) (chunk x3 3072 inb3) (M3 x0 x1 x2 x3) (L3 x0 x1 x2 x3) (ix2 r (0 : Fin 1)) = _
  rw [step_l (Q x0 x1 x2) x3 r 3 3072 rfl inb3, M3_row, L3_row]; rfl

variable (h : Fin 512)
local notation "Vh" => (fun k : Fin 4096 => x4 (ix3 (0 : Fin 1) k h))

theorem A1_row : A1 x0 x1 x2 x3 x4 (ix2 r h) = Cert.Attention.a1 Sr Vh := by
  show aN (Q x0 x1 x2) (chunk x3 0 inb0) (chunk x4 0 inb0) k1_pay3 k1_pay5 (ix2 r h) = _
  rw [step_a (Q x0 x1 x2) x3 x4 r 0 0 rfl inb0, pay3_apply, pay5_apply]; rfl
theorem A2_row : A2 x0 x1 x2 x3 x4 (ix2 r h) = Cert.Attention.a2 Sr Vh := by
  show aN (Q x0 x1 x2) (chunk x3 1024 inb1) (chunk x4 1024 inb1) (M1 x0 x1 x2 x3) (A1 x0 x1 x2 x3 x4) (ix2 r h) = _
  rw [step_a (Q x0 x1 x2) x3 x4 r 1 1024 rfl inb1, M1_row, A1_row]; rfl
theorem A3_row : A3 x0 x1 x2 x3 x4 (ix2 r h) = Cert.Attention.a3 Sr Vh := by
  show aN (Q x0 x1 x2) (chunk x3 2048 inb2) (chunk x4 2048 inb2) (M2 x0 x1 x2 x3) (A2 x0 x1 x2 x3 x4) (ix2 r h) = _
  rw [step_a (Q x0 x1 x2) x3 x4 r 2 2048 rfl inb2, M2_row, A2_row]; rfl
theorem A4_row : A4 x0 x1 x2 x3 x4 (ix2 r h) = Cert.Attention.a4 Sr Vh := by
  show aN (Q x0 x1 x2) (chunk x3 3072 inb3) (chunk x4 3072 inb3) (M3 x0 x1 x2 x3) (A3 x0 x1 x2 x3 x4) (ix2 r h) = _
  rw [step_a (Q x0 x1 x2) x3 x4 r 3 3072 rfl inb3, M3_row, A3_row]; rfl

end Four

/-! ## The body is `bodyF` -/

theorem body_eq (c : Dev nD) (i : grid1.Coords) (arg2 : Memref sig .tc .vmem S1x512x512 .f32) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512x512 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x512 .f32) (harg12 : arg12.IsWhole) (x0 : Vec Ideal S1x512x512 .f32) (x1 : Vec Ideal S512x512 .bf16) (x2 : Vec Ideal S1x512 .f32) (x3 : Vec Ideal S1x4096x512 .bf16) (x4 : Vec Ideal S1x4096x512 .bf16) (x5 : Vec Ideal S512x512 .bf16) (x6 : Vec Ideal S1x512 .f32) :
    out1_A_7 (F := Ideal) c i arg2 harg2 arg3 harg3 arg4 harg4 arg5 harg5 arg6 harg6 arg7 harg7 arg8 harg8 arg9 harg9 arg10 harg10 arg11 harg11 arg12 harg12 x0 x1 x2 x3 x4 x5 x6 = bodyF x0 x1 x2 x3 x4 x5 x6 := by
  rw [out_eq]
  funext y
  obtain ⟨u, r, d, rfl⟩ : ∃ (u : Fin 1) (r d : Fin 512), y = ix3 u r d := ⟨y 0, y 1, y 2, eq_ix3 y⟩
  rw [pay1_apply]
  unfold bodyF
  show _ = (∑ h : Fin 512, Cert.Attention.onlineRow (fun k => ∑ h' : Fin 512, qrow x0 x1 x2 r h' * x3 (ix3 (0 : Fin 1) k h'))
      (fun k => x4 (ix3 (0 : Fin 1) k h)) * x5 (ix2 h d)) + x6 (ix2 (0 : Fin 1) d)
  refine congrArg (· + x6 (ix2 (0 : Fin 1) d)) ?_
  refine Finset.sum_congr rfl fun h _ => ?_
  rw [A4_row, L4_row]
  have hS : S (Q x0 x1 x2) x3 r = fun k => ∑ h' : Fin 512, qrow x0 x1 x2 r h' * x3 (ix3 (0 : Fin 1) k h') := by
    funext k
    unfold S
    exact Finset.sum_congr rfl fun h' _ => by rw [Q_apply]
  rw [hS]
  rfl

end Cert.KernelIdeal.Body

end
-- ==== Proof.Bridge.lean ====
/-
  The arrays the second kernel region finds are re-indexings of the arguments, and with them what it computes is the
  attention function in its chunked spelling: the flattened input's row `4096 b + k` is position `k` of batch `b`, a
  weight matrix in the narrower format is the same matrix of extended reals, a bias as a one-row matrix is the bias,
  and the first region's `X · W + b` over the flattened rows, re-shaped to (4, 4096, 512), is the projection
  `Cert.Attention.proj`.
-/
import proofs.«116658_j4844723110037_2_alg».proof.Proof.KernelSpec
import proofs.«116658_j4844723110037_2_alg».proof.Proof.Attention
import Idealize.ShloMosaic.Lib.Pipeline.Value
import Idealize.ShloMosaic.Lib.ValueLayout

noncomputable section

namespace Cert.KernelIdeal.Bridge

open Cert.KernelIdeal Cert.KernelIdeal.Gen Cert.KernelIdeal.Spec Cert.Attention
open Idealize.ShloMosaic Idealize.ShloMosaic.ValueIdx

variable (X : FVec Ideal S4x4096x512 .f32) (W : FVec Ideal S512x512 .f32) (b : FVec Ideal S512 .f32)

/-- Row `4096 bi + k` of the flattened input is position `k` of batch `bi`. -/
theorem flat_apply (bi : Fin 4) (k : Fin 4096) (d : Fin 512) :
    shapeCast S16384x512 X shapeCasts_S4x4096x512_S16384x512 (ix2 (⟨4096 * bi.val + k.val, by have := bi.isLt; have := k.isLt; omega⟩ : Fin 16384) d)
      = X (ix3 bi k d) :=
  shapeCast_apply X _ _ _ (by
    rw [Shape.rowMajor_val_three, Shape.rowMajor_val_two]
    show (bi.val * 4096 + k.val) * 512 + d.val = (4096 * bi.val + k.val) * 512 + d.val
    omega)

/-- The first region's result over the flattened rows, re-shaped to (4, 4096, 512), is the affine projection. -/
theorem kv_apply (bi : Fin 4) (k : Fin 4096) (h : Fin 512) :
    shapeCast S4x4096x512
        (affArr (shapeCast S16384x512 X shapeCasts_S4x4096x512_S16384x512) (truncf .bf16 W bitsLt_bf16_f32)
          (shapeCast S1x512 b shapeCasts_S512_S1x512))
        shapeCasts_S16384x512_S4x4096x512 (ix3 bi k h)
      = proj X W b bi k h := by
  rw [shapeCast_apply _ shapeCasts_S16384x512_S4x4096x512 (ix3 bi k h)
    (ix2 (⟨4096 * bi.val + k.val, by have := bi.isLt; have := k.isLt; omega⟩ : Fin 16384) h) (by
      rw [Shape.rowMajor_val_three, Shape.rowMajor_val_two]
      show (4096 * bi.val + k.val) * 512 + h.val = (bi.val * 4096 + k.val) * 512 + h.val
      omega)]
  unfold affArr proj
  show (∑ d : Fin 512, shapeCast S16384x512 X shapeCasts_S4x4096x512_S16384x512 (ix2 (⟨4096 * bi.val + k.val, _⟩ : Fin 16384) d)
      * (truncf .bf16 W bitsLt_bf16_f32 : FVec Ideal S512x512 .bf16) (ix2 d h)) + shapeCast S1x512 b shapeCasts_S512_S1x512 (ix2 (0 : Fin 1) h) = _
  rw [shapeCast_a_1a_apply]
  congr 1
  refine Finset.sum_congr rfl fun d _ => ?_
  rw [flat_apply, truncf_apply]

variable (Wq : FVec Ideal S512x512 .f32) (bq : FVec Ideal S512 .f32) (Wk : FVec Ideal S512x512 .f32) (bk : FVec Ideal S512 .f32)
  (Wv : FVec Ideal S512x512 .f32) (bv : FVec Ideal S512 .f32) (Wo : FVec Ideal S512x512 .f32) (bo : FVec Ideal S512 .f32)

/-- With the arrays the program hands it, the second region computes the attention function in its chunked spelling. -/
theorem attn_eq_Gonline :
    attnArr X (truncf .bf16 Wq bitsLt_bf16_f32) (shapeCast S1x512 bq shapeCasts_S512_S1x512)
        (shapeCast S4x4096x512
          (affArr (shapeCast S16384x512 X shapeCasts_S4x4096x512_S16384x512) (truncf .bf16 Wk bitsLt_bf16_f32)
            (shapeCast S1x512 bk shapeCasts_S512_S1x512)) shapeCasts_S16384x512_S4x4096x512)
        (shapeCast S4x4096x512
          (affArr (shapeCast S16384x512 X shapeCasts_S4x4096x512_S16384x512) (truncf .bf16 Wv bitsLt_bf16_f32)
            (shapeCast S1x512 bv shapeCasts_S512_S1x512)) shapeCasts_S16384x512_S4x4096x512)
        (truncf .bf16 Wo bitsLt_bf16_f32) (shapeCast S1x512 bo shapeCasts_S512_S1x512)
      = Gonline X Wq bq Wk bk Wv bv Wo bo := by
  funext i
  obtain ⟨bi, r, d, rfl⟩ : ∃ (bi : Fin 4) (r : Fin 4096) (d : Fin 512), i = ix3 bi r d := ⟨i 0, i 1, i 2, eq_ix3 i⟩
  show (∑ h : Fin 512,
      onlineRow
        (fun k => ∑ h' : Fin 512, ((∑ d' : Fin 512, X (ix3 bi r d') * (truncf .bf16 Wq bitsLt_bf16_f32 : FVec Ideal S512x512 .bf16) (ix2 d' h'))
            + shapeCast S1x512 bq shapeCasts_S512_S1x512 (ix2 (0 : Fin 1) h'))
          * shapeCast S4x4096x512
              (affArr (shapeCast S16384x512 X shapeCasts_S4x4096x512_S16384x512) (truncf .bf16 Wk bitsLt_bf16_f32)
                (shapeCast S1x512 bk shapeCasts_S512_S1x512)) shapeCasts_S16384x512_S4x4096x512 (ix3 bi k h'))
        (fun k => shapeCast S4x4096x512
              (affArr (shapeCast S16384x512 X shapeCasts_S4x4096x512_S16384x512) (truncf .bf16 Wv bitsLt_bf16_f32)
                (shapeCast S1x512 bv shapeCasts_S512_S1x512)) shapeCasts_S16384x512_S4x4096x512 (ix3 bi k h))
        * (truncf .bf16 Wo bitsLt_bf16_f32 : FVec Ideal S512x512 .bf16) (ix2 h d))
      + shapeCast S1x512 bo shapeCasts_S512_S1x512 (ix2 (0 : Fin 1) d)
    = (∑ h : Fin 512, onlineRow (scores (proj X Wq bq) (proj X Wk bk) bi r) (fun j => proj X Wv bv bi j h) * Wo (ix2 h d))
      + bo (ix1 d)
  rw [shapeCast_a_1a_apply]
  congr 1
  refine Finset.sum_congr rfl fun h _ => ?_
  rw [truncf_apply]
  congr 2
  · funext k
    unfold scores
    refine Finset.sum_congr rfl fun h' _ => ?_
    rw [kv_apply, shapeCast_a_1a_apply]
    congr 1
  · funext k
    rw [kv_apply]

end Cert.KernelIdeal.Bridge

end
-- ==== Proof.KernelValue.lean ====
/-
  The idealized kernel program's result: after every weakly fair execution the result array holds the attention
  function, in its chunked spelling, of the argument arrays.  The second region's array is its blocks (each the body
  on the point's input blocks); the arrays it finds are the host operations' re-indexings of the arguments and of the
  first region's two projections.
-/
import proofs.«116658_j4844723110037_2_alg».proof.Proof.KernelRun
import proofs.«116658_j4844723110037_2_alg».proof.Proof.HostChain
import proofs.«116658_j4844723110037_2_alg».proof.Proof.KVValue
import proofs.«116658_j4844723110037_2_alg».proof.Proof.AttnArray
import proofs.«116658_j4844723110037_2_alg».proof.Proof.BodyAt
import proofs.«116658_j4844723110037_2_alg».proof.Proof.Bridge

set_option maxRecDepth 16384

noncomputable section

namespace Cert.KernelIdeal.Value

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- At every grid point the second region's body leaves `bodyF` of the point's input blocks. -/
theorem body_at (c : Dev nD) (t : Fin cfg1.N) :
    outsAt1 (V3 m ρ) c t = Cert.KernelIdeal.Spec.bodyF (iblk1 (V3 m ρ) c 0 t) (iblk1 (V3 m ρ) c 1 t) (iblk1 (V3 m ρ) c 2 t)
      (iblk1 (V3 m ρ) c 3 t) (iblk1 (V3 m ρ) c 4 t) (iblk1 (V3 m ρ) c 5 t) (iblk1 (V3 m ρ) c 6 t) := by
  unfold outsAt1
  exact Cert.KernelIdeal.Body.body_eq ..

/-- The result array at the last boundary is the chunked attention function of the launch contents of the arguments. -/
theorem result_eq (c : Dev nD) :
    W4 m ρ c (Proc.devRef .tc main_v12)
      = Cert.Attention.Gonline (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  rw [← Cert.KernelIdeal.Bridge.attn_eq_Gonline]
  refine (W4_arr m ρ c 7).trans ?_
  rw [Cert.KernelIdeal.AttnArr.final7 (V3 m ρ) c (body_at m ρ c)]
  rw [Cert.KernelIdeal.Host.V3_arg0, Cert.KernelIdeal.Host.V3_v1, Cert.KernelIdeal.Host.V1_v1, Cert.KernelIdeal.Host.V3_v5,
    Cert.KernelIdeal.Host.V1_v5, Cert.KernelIdeal.Host.V3_v10, Cert.KernelIdeal.Host.V3_v11, Cert.KernelIdeal.Host.V3_v4,
    Cert.KernelIdeal.Host.V1_v4, Cert.KernelIdeal.Host.V3_v8, Cert.KernelIdeal.Host.V1_v8,
    Cert.KernelIdeal.KV.final5 (V1 m ρ) c, Cert.KernelIdeal.KV.final6 (V1 m ρ) c,
    Cert.KernelIdeal.Host.V1_v0, Cert.KernelIdeal.Host.V1_v2, Cert.KernelIdeal.Host.V1_v6, Cert.KernelIdeal.Host.V1_v3,
    Cert.KernelIdeal.Host.V1_v7]

/-- The program's run, read: the result array at the chunked attention function of the arguments, the arguments unchanged. -/
theorem run : θ_run defs (onTc (τ := τ) (main (F := Ideal))) ⟨m, fun _ => 0, ρ⟩ (fun r => ∀ c : Dev nD,
      r.2.mem ((c.tc : Thread nD τ).loc main_v12)
        = Cert.Attention.Gonline (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (Cert.KernelIdeal.Run.run_result m ρ)

end Cert.KernelIdeal.Value

end
-- ==== Proof.RefValue.lean ====
/-
  The reference program's result, read index by index, is the attention function G.

  The program computes three affine projections x · W + b, the scores of every query row against every key
  row, each row's maximum (folded from -∞, then once more compared with -∞), the exponentials of the scores
  relative to that maximum, their row sums, the quotients, the weighted means of the value projection, and a last
  affine projection.  Each stage is read at an index from the stages before it; the composition is G.
-/
import proofs.«116658_j4844723110037_2_alg».proof.Proof.Gen.ReferenceIdeal.Read
import proofs.«116658_j4844723110037_2_alg».proof.Proof.Attention

noncomputable section

namespace Cert.RefValue

open Idealize.ShloMosaic Idealize.ShloMosaic.ValueIdx Cert.ReferenceIdeal Cert.ReferenceIdeal.Read
open Cert.Attention

/-- The three array types of the arguments. -/
abbrev TX : Type := (⟨S4x4096x512, .f32⟩ : BufTy).Contents (Elt Ideal)
abbrev TW : Type := (⟨S512x512, .f32⟩ : BufTy).Contents (Elt Ideal)
abbrev TB : Type := (⟨S512, .f32⟩ : BufTy).Contents (Elt Ideal)

/-! ## The affine projection -/

/-- The broadcast bias at (bi, s, h) is the bias at h. -/
theorem bias_apply (b : TB) (bi : Fin 4) (s : Fin 4096) (h : Fin 512) :
    val_main_v2 (F := Ideal) b (ix3 bi s h) = b (ix1 h) := by
  rw [val_main_v2_apply, val_main_v1_apply]
  exact congrArg b (funext fun a => Fin.ext (by match a with | ⟨0, _⟩ => rfl))

/-- The first projection stage at (bi, s, h) is proj there, for any input, weight and bias. -/
theorem proj_apply (x : TX) (W : TW) (b : TB) (bi : Fin 4) (s : Fin 4096) (h : Fin 512) :
    val_main_v3 (F := Ideal) x W b (ix3 bi s h) = proj x W b bi s h := by
  rw [val_main_v3_apply, Ideal.addf_def, val_main_v0_apply, bias_apply]
  unfold proj
  refine congrArg (· + b (ix1 h)) (Finset.sum_congr rfl fun d _ => ?_)
  have el : lidx_main_v0 (ix3 bi s h) d = ix3 bi s d :=
    funext fun a => Fin.ext (by match a with | ⟨0, _⟩ => rfl | ⟨1, _⟩ => rfl | ⟨2, _⟩ => rfl)
  have er : ridx_main_v0 (ix3 bi s h) d = ix2 d h :=
    funext fun a => Fin.ext (by match a with | ⟨0, _⟩ => rfl | ⟨1, _⟩ => rfl)
  rw [el, er]

/-- The second and third projection stages are the first one's function at other arguments. -/
theorem v7_eq (x : TX) (W : TW) (b : TB) : val_main_v7 (F := Ideal) x W b = val_main_v3 (F := Ideal) x W b := rfl
theorem v11_eq (x : TX) (W : TW) (b : TB) : val_main_v11 (F := Ideal) x W b = val_main_v3 (F := Ideal) x W b := rfl

/-! ## The scores -/

/-- The score stage at (bi, r, j) is the score of query row r against key row j. -/
theorem score_apply (x : TX) (Wq : TW) (bq : TB) (Wk : TW) (bk : TB) (bi : Fin 4) (r j : Fin 4096) :
    val_main_v12 (F := Ideal) x Wq bq Wk bk (ix3 bi r j) = scores (proj x Wq bq) (proj x Wk bk) bi r j := by
  rw [val_main_v12_apply]
  unfold scores
  refine Finset.sum_congr rfl fun h _ => ?_
  have el : lidx_main_v12 (ix3 bi r j) h = ix3 bi r h :=
    funext fun a => Fin.ext (by match a with | ⟨0, _⟩ => rfl | ⟨1, _⟩ => rfl | ⟨2, _⟩ => rfl)
  have er : ridx_main_v12 (ix3 bi r j) h = ix3 bi j h :=
    funext fun a => Fin.ext (by match a with | ⟨0, _⟩ => rfl | ⟨1, _⟩ => rfl | ⟨2, _⟩ => rfl)
  rw [el, er, proj_apply, v7_eq, proj_apply]

/-! ## The row maximum -/

/-- The bit pattern of the reduction's initial value is -∞. -/
theorem ofBits_neg_inf : Ideal.ofBits .f32 0xFF800000#32 = (⊥ : EReal) := by simp [Ideal.ofBits, Ideal.ieee]

/-- The shape fact that names the index with the reduced coordinate inserted. -/
theorem reduces_d2 : S4x4096x4096.Reduces [2] S4x4096 := by decide

/-- The max-reduction stage at (bi, r) is the fold of max from -∞ over the row's scores. -/
theorem rowmax_apply (x : TX) (Wq : TW) (bq : TB) (Wk : TW) (bk : TB) (bi : Fin 4) (r : Fin 4096) :
    val_main_v13 (F := Ideal) x Wq bq Wk bk (ix2 bi r)
      = (Finset.univ : Finset (Fin 4096)).fold max ⊥ (scores (proj x Wq bq) (proj x Wk bk) bi r) := by
  unfold val_main_v13
  rw [Host.reduce_eq_fold_single FloatOps.maximumf _ _ Facts₀.reducesTo_S4x4096x4096_S4x4096_d2 reduces_d2]
  rw [val_main_cst_apply, Ideal.ofBits_def, ofBits_neg_inf]
  have hs : (val_main_v12 (F := Ideal) x Wq bq Wk bk ∘ reduces_d2.lift (ix2 bi r))
      = scores (proj x Wq bq) (proj x Wk bk) bi r := funext fun (j : Fin 4096) => by
    have e : reduces_d2.lift (ix2 bi r) j = ix3 bi r j :=
      funext fun a => Fin.ext (by match a with | ⟨0, _⟩ => rfl | ⟨1, _⟩ => rfl | ⟨2, _⟩ => rfl)
    show val_main_v12 (F := Ideal) x Wq bq Wk bk (reduces_d2.lift (ix2 bi r) j) = _
    rw [e, score_apply]
  rw [hs]
  rfl

/-- The maximum stage at (bi, r) is the row's reference point. -/
theorem max_apply (x : TX) (Wq : TW) (bq : TB) (Wk : TW) (bk : TB) (bi : Fin 4) (r : Fin 4096) :
    val_main_v15 (F := Ideal) x Wq bq Wk bk (ix2 bi r) = refMax (scores (proj x Wq bq) (proj x Wk bk) bi r) := by
  rw [val_main_v15_apply, Ideal.maximumf_def, val_main_v14_apply, val_main_cst_0_apply, Ideal.ofBits_def, ofBits_neg_inf,
    rowmax_apply]
  rfl

/-! ## The weights -/

/-- The exponential stage at (bi, r, j): the exponential of the score relative to the row's reference point. -/
theorem exp_apply (x : TX) (Wq : TW) (bq : TB) (Wk : TW) (bk : TB) (bi : Fin 4) (r j : Fin 4096) :
    val_main_v19 (F := Ideal) x Wq bq Wk bk (ix3 bi r j)
      = Ideal.exp (scores (proj x Wq bq) (proj x Wk bk) bi r j - refMax (scores (proj x Wq bq) (proj x Wk bk) bi r)) := by
  rw [val_main_v19_apply, Ideal.hostUnary_exp_def, val_main_v18_apply, Ideal.subf_def, score_apply, val_main_v17_apply,
    val_main_v16_apply]
  have e : idx_main_v16 (idx_main_v17 (ix3 bi r j)) = ix2 bi r :=
    funext fun a => Fin.ext (by match a with | ⟨0, _⟩ => rfl | ⟨1, _⟩ => rfl)
  rw [e, max_apply]

/-- The sum stage at (bi, r): the total of the row's exponentials. -/
theorem total_apply (x : TX) (Wq : TW) (bq : TB) (Wk : TW) (bk : TB) (bi : Fin 4) (r : Fin 4096) :
    val_main_v20 (F := Ideal) x Wq bq Wk bk (ix2 bi r)
      = ∑ k : Fin 4096, Ideal.exp (scores (proj x Wq bq) (proj x Wk bk) bi r k - refMax (scores (proj x Wq bq) (proj x Wk bk) bi r)) := by
  rw [val_main_v20_apply, val_main_cst_1_apply, Ideal.ofBits_def, Ideal.ofBits_zero_f32, zero_add]
  refine Finset.sum_congr rfl fun k _ => ?_
  have e : idx_main_v20 (ix2 bi r) k = ix3 bi r k :=
    funext fun a => Fin.ext (by match a with | ⟨0, _⟩ => rfl | ⟨1, _⟩ => rfl | ⟨2, _⟩ => rfl)
  rw [e, exp_apply]

/-- The quotient stage at (bi, r, j): the normalised weight of key row j. -/
theorem weight_apply (x : TX) (Wq : TW) (bq : TB) (Wk : TW) (bk : TB) (bi : Fin 4) (r j : Fin 4096) :
    val_main_v23 (F := Ideal) x Wq bq Wk bk (ix3 bi r j)
      = Ideal.div (Ideal.exp (scores (proj x Wq bq) (proj x Wk bk) bi r j - refMax (scores (proj x Wq bq) (proj x Wk bk) bi r)))
          (∑ k : Fin 4096, Ideal.exp (scores (proj x Wq bq) (proj x Wk bk) bi r k - refMax (scores (proj x Wq bq) (proj x Wk bk) bi r))) := by
  rw [val_main_v23_apply, Ideal.hostDivf_def, exp_apply, val_main_v22_apply, val_main_v21_apply]
  have e : idx_main_v21 (idx_main_v22 (ix3 bi r j)) = ix2 bi r :=
    funext fun a => Fin.ext (by match a with | ⟨0, _⟩ => rfl | ⟨1, _⟩ => rfl)
  rw [e, total_apply]

/-! ## The weighted mean and the result -/

/-- The weighted-mean stage at (bi, r, h): refRow of the row's scores and the value projection's column h. -/
theorem mean_apply (x : TX) (Wq : TW) (bq : TB) (Wk : TW) (bk : TB) (Wv : TW) (bv : TB) (bi : Fin 4) (r : Fin 4096) (h : Fin 512) :
    val_main_v24 (F := Ideal) x Wq bq Wk bk Wv bv (ix3 bi r h)
      = refRow (scores (proj x Wq bq) (proj x Wk bk) bi r) (fun j => proj x Wv bv bi j h) := by
  rw [val_main_v24_apply]
  unfold refRow
  refine Finset.sum_congr rfl fun k _ => ?_
  have el : lidx_main_v24 (ix3 bi r h) k = ix3 bi r k :=
    funext fun a => Fin.ext (by match a with | ⟨0, _⟩ => rfl | ⟨1, _⟩ => rfl | ⟨2, _⟩ => rfl)
  have er : ridx_main_v24 (ix3 bi r h) k = ix3 bi k h :=
    funext fun a => Fin.ext (by match a with | ⟨0, _⟩ => rfl | ⟨1, _⟩ => rfl | ⟨2, _⟩ => rfl)
  rw [el, er, weight_apply, v11_eq, proj_apply]

/-- The last stage is the first projection's function of the weighted means, the output weight and the output bias. -/
theorem v28_eq (x : TX) (Wq : TW) (bq : TB) (Wk : TW) (bk : TB) (Wv : TW) (bv : TB) (Wo : TW) (bo : TB) :
    val_main_v28 (F := Ideal) x Wq bq Wk bk Wv bv Wo bo
      = val_main_v3 (F := Ideal) (val_main_v24 (F := Ideal) x Wq bq Wk bk Wv bv) Wo bo := rfl

/-- The reference program's result is G of its arguments. -/
theorem ref_eq_G (x0 : (⟨S4x4096x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) (x7 : (⟨S512x512, .f32⟩ : BufTy).Contents (Elt Ideal))
    (x8 : (⟨S512, .f32⟩ : BufTy).Contents (Elt Ideal)) :
    val_main_v28 (F := Ideal) x0 x1 x2 x3 x4 x5 x6 x7 x8 = Cert.Attention.G x0 x1 x2 x3 x4 x5 x6 x7 x8 := by
  funext i
  obtain ⟨bi, r, d, rfl⟩ : ∃ bi r d, i = ix3 bi r d := ⟨i 0, i 1, i 2, eq_ix3 i⟩
  rw [v28_eq, proj_apply]
  show (∑ h : Fin 512, val_main_v24 (F := Ideal) x0 x1 x2 x3 x4 x5 x6 (ix3 bi r h) * x7 (ix2 h d)) + x8 (ix1 d)
    = (∑ h : Fin 512, refRow (scores (proj x0 x1 x2) (proj x0 x3 x4) bi r) (fun j => proj x0 x5 x6 bi j h) * x7 (ix2 h d))
        + x8 (ix1 d)
  refine congrArg (· + x8 (ix1 d)) (Finset.sum_congr rfl fun h _ => ?_)
  rw [mean_apply]

end Cert.RefValue

end
-- ==== Proof.Softmax.lean ====
import proofs.«116658_j4844723110037_2_alg».proof.Proof.Attention
import Mathlib.Data.EReal.Basic
import Mathlib.Data.EReal.Operations
import Mathlib.Data.EReal.Inv
import Mathlib.Analysis.SpecialFunctions.Exp
import Mathlib.Algebra.BigOperators.Fin
import Mathlib.Algebra.BigOperators.Ring.Finset
import Mathlib.Data.Finset.Fold
import Mathlib.Algebra.Order.BigOperators.Group.Finset

/-
  The chunked recurrence and the weight-by-weight softmax mean agree on real scores and values,
  and the attention output built from either spelling is the same function of real inputs.
-/

noncomputable section

namespace Cert.Attention

open Idealize.ShloMosaic Idealize.ShloMosaic.ValueIdx

/-! ## Coercions of finite sums and folded maxima -/

/-- The coercion of a finite real sum is the sum of the coercions. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The maximum, folded from `-∞`, of finitely many (at least one) reals is a real. -/
theorem fold_max_real {ι : Type*} (t : Finset ι) (ht : t.Nonempty) (f : ι → ℝ) :
    ∃ μ : ℝ, t.fold max ⊥ (fun i => (f i : EReal)) = (μ : EReal) := by
  obtain ⟨a, ha⟩ := ht
  have h1 : t.fold max ⊥ (fun i => (f i : EReal)) < ⊤ := by
    rw [Finset.fold_max_lt]; exact ⟨bot_lt_top, fun x _ => EReal.coe_lt_top _⟩
  have h2 : ⊥ < t.fold max ⊥ (fun i => (f i : EReal)) := by
    rw [Finset.lt_fold_max]; exact Or.inr ⟨a, ha, EReal.bot_lt_coe _⟩
  exact ⟨_, (EReal.coe_toReal h1.ne h2.ne').symm⟩

/-! ## The real quantities behind one chunk -/

/-- The weights of chunk `c` relative to the reference point `μ`, summed. -/
def Lc (s : Fin 4096 → ℝ) (μ : ℝ) (c : Fin 4) : ℝ := ∑ j : Fin 1024, Real.exp (s (key c j) - μ)

/-- The weighted values of chunk `c` relative to the reference point `μ`, summed. -/
def Ac (s v : Fin 4096 → ℝ) (μ : ℝ) (c : Fin 4) : ℝ :=
  ∑ j : Fin 1024, Real.exp (s (key c j) - μ) * v (key c j)

/-- Moving the reference point from `μ` to `μ'` rescales a chunk's weights by `exp (μ - μ')`. -/
theorem Lc_shift (s : Fin 4096 → ℝ) (μ μ' : ℝ) (c : Fin 4) :
    Real.exp (μ - μ') * Lc s μ c = Lc s μ' c := by
  unfold Lc
  rw [Finset.mul_sum]
  refine Finset.sum_congr rfl fun j _ => ?_
  rw [← Real.exp_add]; congr 1; ring

theorem Ac_shift (s v : Fin 4096 → ℝ) (μ μ' : ℝ) (c : Fin 4) :
    Real.exp (μ - μ') * Ac s v μ c = Ac s v μ' c := by
  unfold Ac
  rw [Finset.mul_sum]
  refine Finset.sum_congr rfl fun j _ => ?_
  rw [← mul_assoc, ← Real.exp_add]; congr 2; ring

section Row

variable {S V : Fin 4096 → EReal} {s v : Fin 4096 → ℝ}

/-- A chunk's maximum of real scores is a real. -/
theorem chunkMax_real (hS : ∀ k, S k = (s k : EReal)) (c : Fin 4) :
    ∃ ν : ℝ, (Finset.univ : Finset (Fin 1024)).fold max ⊥ (fun j => S (key c j)) = (ν : EReal) := by
  simp only [hS]
  exact fold_max_real _ ⟨⟨0, by norm_num⟩, Finset.mem_univ _⟩ (fun j => s (key c j))

theorem stepM_bot_real (hS : ∀ k, S k = (s k : EReal)) (c : Fin 4) :
    ∃ μ' : ℝ, stepM S ⊥ c = (μ' : EReal) := by
  obtain ⟨ν, hν⟩ := chunkMax_real hS c
  exact ⟨ν, by rw [stepM, hν, max_eq_right bot_le]⟩

theorem stepM_coe_real (hS : ∀ k, S k = (s k : EReal)) (μ : ℝ) (c : Fin 4) :
    ∃ μ' : ℝ, stepM S (μ : EReal) c = (μ' : EReal) := by
  obtain ⟨ν, hν⟩ := chunkMax_real hS c
  exact ⟨max μ ν, by rw [stepM, hν]; exact (EReal.coe_strictMono.monotone.map_max).symm⟩

theorem chunkL_coe (hS : ∀ k, S k = (s k : EReal)) (μ : ℝ) (c : Fin 4) :
    (∑ j : Fin 1024, Ideal.exp (S (key c j) - (μ : EReal))) = ((Lc s μ c : ℝ) : EReal) := by
  rw [Lc, coe_finset_sum]
  refine Finset.sum_congr rfl fun j _ => ?_
  rw [hS, ← EReal.coe_sub, Ideal.exp_coe]

theorem chunkA_coe (hS : ∀ k, S k = (s k : EReal)) (hV : ∀ k, V k = (v k : EReal)) (μ : ℝ) (c : Fin 4) :
    (∑ j : Fin 1024, Ideal.exp (S (key c j) - (μ : EReal)) * V (key c j)) = ((Ac s v μ c : ℝ) : EReal) := by
  rw [Ac, coe_finset_sum]
  refine Finset.sum_congr rfl fun j _ => ?_
  rw [hS, hV, ← EReal.coe_sub, Ideal.exp_coe, ← EReal.coe_mul]

/-- The first chunk, absorbed from the empty state. -/
theorem stepL_bot (hS : ∀ k, S k = (s k : EReal)) (c : Fin 4) {μ' : ℝ} (h : stepM S ⊥ c = (μ' : EReal)) :
    stepL S ⊥ 0 c = ((Lc s μ' c : ℝ) : EReal) := by
  rw [stepL, h, mul_zero, zero_add, chunkL_coe hS]

theorem stepA_bot (hS : ∀ k, S k = (s k : EReal)) (hV : ∀ k, V k = (v k : EReal)) (c : Fin 4) {μ' : ℝ}
    (h : stepM S ⊥ c = (μ' : EReal)) : stepA S V ⊥ 0 c = ((Ac s v μ' c : ℝ) : EReal) := by
  rw [stepA, h, mul_zero, zero_add, chunkA_coe hS hV]

/-- A later chunk, absorbed into a real state. -/
theorem stepL_coe (hS : ∀ k, S k = (s k : EReal)) (μ L : ℝ) (c : Fin 4) {μ' : ℝ}
    (h : stepM S (μ : EReal) c = (μ' : EReal)) :
    stepL S (μ : EReal) (L : EReal) c = ((Real.exp (μ - μ') * L + Lc s μ' c : ℝ) : EReal) := by
  rw [stepL, h, chunkL_coe hS, ← EReal.coe_sub, Ideal.exp_coe, ← EReal.coe_mul, ← EReal.coe_add]

theorem stepA_coe (hS : ∀ k, S k = (s k : EReal)) (hV : ∀ k, V k = (v k : EReal)) (μ A : ℝ) (c : Fin 4) {μ' : ℝ}
    (h : stepM S (μ : EReal) c = (μ' : EReal)) :
    stepA S V (μ : EReal) (A : EReal) c = ((Real.exp (μ - μ') * A + Ac s v μ' c : ℝ) : EReal) := by
  rw [stepA, h, chunkA_coe hS hV, ← EReal.coe_sub, Ideal.exp_coe, ← EReal.coe_mul, ← EReal.coe_add]

/-- After the four chunks the running denominator and numerator are the four chunks' sums at one
    common real reference point. -/
theorem online_real (hS : ∀ k, S k = (s k : EReal)) (hV : ∀ k, V k = (v k : EReal)) :
    ∃ μ : ℝ, l4 S = ((Lc s μ 0 + Lc s μ 1 + Lc s μ 2 + Lc s μ 3 : ℝ) : EReal) ∧
      a4 S V = ((Ac s v μ 0 + Ac s v μ 1 + Ac s v μ 2 + Ac s v μ 3 : ℝ) : EReal) := by
  obtain ⟨μ1, h1⟩ := stepM_bot_real hS 0
  obtain ⟨μ2, h2⟩ := stepM_coe_real hS μ1 1
  obtain ⟨μ3, h3⟩ := stepM_coe_real hS μ2 2
  obtain ⟨μ4, h4⟩ := stepM_coe_real hS μ3 3
  have hm1 : m1 S = (μ1 : EReal) := h1
  have hm2 : m2 S = (μ2 : EReal) := by rw [m2, hm1, h2]
  have hm3 : m3 S = (μ3 : EReal) := by rw [m3, hm2, h3]
  have hl1 : l1 S = ((Lc s μ1 0 : ℝ) : EReal) := stepL_bot hS 0 h1
  have hl2 : l2 S = ((Lc s μ2 0 + Lc s μ2 1 : ℝ) : EReal) := by
    rw [l2, hm1, hl1, stepL_coe hS μ1 _ 1 h2, Lc_shift]
  have hl3 : l3 S = ((Lc s μ3 0 + Lc s μ3 1 + Lc s μ3 2 : ℝ) : EReal) := by
    rw [l3, hm2, hl2, stepL_coe hS μ2 _ 2 h3, mul_add, Lc_shift, Lc_shift]
  have hl4 : l4 S = ((Lc s μ4 0 + Lc s μ4 1 + Lc s μ4 2 + Lc s μ4 3 : ℝ) : EReal) := by
    rw [l4, hm3, hl3, stepL_coe hS μ3 _ 3 h4, mul_add, mul_add, Lc_shift, Lc_shift, Lc_shift]
  have ha1 : a1 S V = ((Ac s v μ1 0 : ℝ) : EReal) := stepA_bot hS hV 0 h1
  have ha2 : a2 S V = ((Ac s v μ2 0 + Ac s v μ2 1 : ℝ) : EReal) := by
    rw [a2, hm1, ha1, stepA_coe hS hV μ1 _ 1 h2, Ac_shift]
  have ha3 : a3 S V = ((Ac s v μ3 0 + Ac s v μ3 1 + Ac s v μ3 2 : ℝ) : EReal) := by
    rw [a3, hm2, ha2, stepA_coe hS hV μ2 _ 2 h3, mul_add, Ac_shift, Ac_shift]
  have ha4 : a4 S V = ((Ac s v μ4 0 + Ac s v μ4 1 + Ac s v μ4 2 + Ac s v μ4 3 : ℝ) : EReal) := by
    rw [a4, hm3, ha3, stepA_coe hS hV μ3 _ 3 h4, mul_add, mul_add, Ac_shift, Ac_shift, Ac_shift]
  exact ⟨μ4, hl4, ha4⟩

end Row

/-! ## The 4096 keys are the four chunks of 1024 -/

/-- Chunk and offset against key position. -/
def keyEquiv : Fin 4 × Fin 1024 ≃ Fin 4096 where
  toFun p := key p.1 p.2
  invFun k := (⟨k.val / 1024, by omega⟩, ⟨k.val % 1024, by omega⟩)
  left_inv p := by
    obtain ⟨c, j⟩ := p
    refine Prod.ext (Fin.ext ?_) (Fin.ext ?_)
    · show (1024 * c.val + j.val) / 1024 = c.val
      omega
    · show (1024 * c.val + j.val) % 1024 = j.val
      omega
  right_inv k := by
    refine Fin.ext ?_
    show 1024 * (k.val / 1024) + k.val % 1024 = k.val
    omega

/-- A sum over the key positions is the sum over the chunks of the sums over each chunk. -/
theorem sum_key (f : Fin 4096 → ℝ) : ∑ k, f k = ∑ c : Fin 4, ∑ j : Fin 1024, f (key c j) :=
  calc ∑ k, f k = ∑ p : Fin 4 × Fin 1024, f (key p.1 p.2) :=
        (Fintype.sum_equiv keyEquiv _ _ (fun _ => rfl)).symm
    _ = ∑ c : Fin 4, ∑ j : Fin 1024, f (key c j) := Fintype.sum_prod_type _

theorem Lc_total (s : Fin 4096 → ℝ) (μ : ℝ) :
    Lc s μ 0 + Lc s μ 1 + Lc s μ 2 + Lc s μ 3 = ∑ k, Real.exp (s k - μ) := by
  rw [sum_key (fun k => Real.exp (s k - μ)), Fin.sum_univ_four]
  rfl

theorem Ac_total (s v : Fin 4096 → ℝ) (μ : ℝ) :
    Ac s v μ 0 + Ac s v μ 1 + Ac s v μ 2 + Ac s v μ 3 = ∑ k, Real.exp (s k - μ) * v k := by
  rw [sum_key (fun k => Real.exp (s k - μ) * v k), Fin.sum_univ_four]
  rfl

/-! ## The weighted mean does not depend on the reference point -/

theorem softmax_shift {ι : Type*} [Fintype ι] (s v : ι → ℝ) (μ : ℝ) :
    (∑ k, Real.exp (s k - μ) * v k) / (∑ k, Real.exp (s k - μ))
      = (∑ k, Real.exp (s k) * v k) / (∑ k, Real.exp (s k)) := by
  have h1 : ∀ k, Real.exp (s k - μ) = Real.exp (-μ) * Real.exp (s k) := fun k => by
    rw [← Real.exp_add]; congr 1; ring
  simp only [h1, mul_assoc, ← Finset.mul_sum]
  exact mul_div_mul_left _ _ (Real.exp_pos _).ne'

theorem sum_exp_ne_zero (s : Fin 4096 → ℝ) (μ : ℝ) : (∑ k, Real.exp (s k - μ)) ≠ 0 :=
  (Finset.sum_pos (fun k _ => Real.exp_pos _) ⟨⟨0, by norm_num⟩, Finset.mem_univ _⟩).ne'

/-- The weight-by-weight mean of real scores and values, as a real. -/
theorem refRow_real {S V : Fin 4096 → EReal} {s v : Fin 4096 → ℝ}
    (hS : ∀ k, S k = (s k : EReal)) (hV : ∀ k, V k = (v k : EReal)) :
    ∃ M : ℝ, refRow S V
      = ((∑ k, Real.exp (s k - M) * (1 / ∑ k', Real.exp (s k' - M)) * v k : ℝ) : EReal) := by
  obtain ⟨M, hM⟩ : ∃ M : ℝ, refMax S = (M : EReal) := by
    obtain ⟨ν, hν⟩ := fold_max_real (Finset.univ : Finset (Fin 4096)) ⟨⟨0, by norm_num⟩, Finset.mem_univ _⟩ s
    have hS' : S = fun k => (s k : EReal) := funext hS
    exact ⟨ν, by rw [refMax, hS', hν, max_eq_right bot_le]⟩
  refine ⟨M, ?_⟩
  have hD : (∑ k' : Fin 4096, Ideal.exp (S k' - (M : EReal)))
      = ((∑ k', Real.exp (s k' - M) : ℝ) : EReal) := by
    rw [coe_finset_sum]
    refine Finset.sum_congr rfl fun k _ => ?_
    rw [hS, ← EReal.coe_sub, Ideal.exp_coe]
  rw [refRow, hM, hD]
  refine Eq.trans ?_ (coe_finset_sum _ _).symm
  refine Finset.sum_congr rfl fun k _ => ?_
  rw [Ideal.div_coe (sum_exp_ne_zero s M), hS, hV, ← EReal.coe_sub, Ideal.exp_coe, ← EReal.coe_mul,
    ← EReal.coe_mul]

/-- On real scores and values the chunked recurrence and the weight-by-weight mean agree. -/
theorem onlineRow_eq_refRow (s v : Fin 4096 → ℝ) :
    onlineRow (fun k => (s k : EReal)) (fun k => (v k : EReal))
      = refRow (fun k => (s k : EReal)) (fun k => (v k : EReal)) := by
  obtain ⟨μ, hl, ha⟩ := online_real (S := fun k => (s k : EReal)) (V := fun k => (v k : EReal))
    (s := s) (v := v) (fun _ => rfl) (fun _ => rfl)
  obtain ⟨M, hr⟩ := refRow_real (S := fun k => (s k : EReal)) (V := fun k => (v k : EReal))
    (s := s) (v := v) (fun _ => rfl) (fun _ => rfl)
  rw [hr, onlineRow, hl, ha, Lc_total, Ac_total, Ideal.div_coe (sum_exp_ne_zero s μ), ← EReal.coe_mul]
  rw [EReal.coe_eq_coe_iff, mul_one_div, softmax_shift s v μ, ← softmax_shift s v M, Finset.sum_div]
  refine Finset.sum_congr rfl fun k _ => ?_
  ring

/-! ## Real inputs give real projections and scores -/

theorem proj_real {x : SX.Idx → EReal} {W : SW.Idx → EReal} {b : SB.Idx → EReal}
    (hx : ∀ i, ∃ r : ℝ, x i = (r : EReal)) (hW : ∀ i, ∃ r : ℝ, W i = (r : EReal))
    (hb : ∀ i, ∃ r : ℝ, b i = (r : EReal)) (bi : Fin 4) (s : Fin 4096) (h : Fin 512) :
    ∃ r : ℝ, proj x W b bi s h = (r : EReal) := by
  choose xr hxr using hx
  choose Wr hWr using hW
  choose br hbr using hb
  refine ⟨(∑ d : Fin 512, xr (ix3 bi s d) * Wr (ix2 d h)) + br (ix1 h), ?_⟩
  rw [proj, EReal.coe_add, coe_finset_sum, hbr]
  congr 1
  refine Finset.sum_congr rfl fun d _ => ?_
  rw [hxr, hWr, EReal.coe_mul]

theorem scores_real {Q K : Fin 4 → Fin 4096 → Fin 512 → EReal}
    (hQ : ∀ bi r h, ∃ t : ℝ, Q bi r h = (t : EReal)) (hK : ∀ bi r h, ∃ t : ℝ, K bi r h = (t : EReal))
    (bi : Fin 4) (r j : Fin 4096) : ∃ t : ℝ, scores Q K bi r j = (t : EReal) := by
  choose Qr hQr using hQ
  choose Kr hKr using hK
  refine ⟨∑ h : Fin 512, Qr bi r h * Kr bi j h, ?_⟩
  rw [coe_finset_sum]
  show (∑ h : Fin 512, Q bi r h * K bi j h) = _
  refine Finset.sum_congr rfl fun h _ => ?_
  rw [hQr, hKr, EReal.coe_mul]

/-! ## The whole result -/

/-- On real inputs the attention output is the same with either spelling of the weighted mean. -/
theorem Gonline_eq_G {x : SX.Idx → EReal} {Wq : SW.Idx → EReal} {bq : SB.Idx → EReal}
    {Wk : SW.Idx → EReal} {bk : SB.Idx → EReal} {Wv : SW.Idx → EReal} {bv : SB.Idx → EReal}
    {Wo : SW.Idx → EReal} {bo : SB.Idx → EReal}
    (hx : ∀ i, ∃ r : ℝ, x i = (r : EReal))
    (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal))
    (hWv : ∀ i, ∃ r : ℝ, Wv i = (r : EReal)) (hbv : ∀ i, ∃ r : ℝ, bv i = (r : EReal)) :
    Gonline x Wq bq Wk bk Wv bv Wo bo = G x Wq bq Wk bk Wv bv Wo bo := by
  funext i
  unfold Gonline G attnWith
  congr 1
  refine Finset.sum_congr rfl fun h _ => ?_
  congr 1
  have hsc : ∀ j, ∃ t : ℝ, scores (proj x Wq bq) (proj x Wk bk) (i 0) (i 1) j = (t : EReal) := fun j =>
    scores_real (fun bi r h => proj_real hx hWq hbq bi r h) (fun bi r h => proj_real hx hWk hbk bi r h)
      (i 0) (i 1) j
  have hv : ∀ j, ∃ t : ℝ, proj x Wv bv (i 0) j h = (t : EReal) := fun j => proj_real hx hWv hbv (i 0) j h
  choose sr hsr using hsc
  choose vr hvr using hv
  have e1 : scores (proj x Wq bq) (proj x Wk bk) (i 0) (i 1) = fun k => (sr k : EReal) := funext hsr
  have e2 : (fun j => proj x Wv bv (i 0) j h) = fun k => (vr k : EReal) := funext hvr
  rw [e1, e2]
  exact onlineRow_eq_refRow sr vr

end Cert.Attention

end
-- ==== Proof.Finite.lean ====
import proofs.«116658_j4844723110037_2_alg».proof.Defs
import Idealize.ShloMosaic.Lib.ReduceAll
import Idealize.ShloMosaic.Lib.ValueIdx
import Idealize.ShloMosaic.PureOps.Ideal.Laws

noncomputable section

namespace Cert.Finite

open Idealize.ShloMosaic Idealize.SL.Sem
open Cert.Pre_finite_inputs (S_ S4x4096x512 S512x512 S512)

/-- The rank-0 shape has exactly one index. -/
instance : Subsingleton S_.Idx := ⟨fun a b => funext fun d => d.elim0⟩

/-- The f32 pattern 0x7F800000 denotes +∞. -/
theorem ofBits_inf : Ideal.ofBits .f32 0x7F800000#32 = (⊤ : EReal) := by
  simp [Ideal.ofBits, Ideal.ieee]

/-- An extended real whose absolute value max x (-x) is below +∞ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- A one-bit word made from a Boolean is 1 exactly when the Boolean is true. -/
theorem ofBool_eq_one (b : Bool) : BitVec.ofBool b = 1#1 ↔ b = true := by cases b <;> decide

/-- One all(|x| < +∞): if the and-reduction over every axis of the comparison |x| < +∞ is 1,
    every entry of x is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ValueIdx.ix0 = 1#1) :
    ∀ i, ∃ r : ℝ, x i = (r : EReal) := by
  intro i
  have h1 := Host.reduce_andi_all _ _ hr hu ValueIdx.ix0 e i
  apply real_of_abs_lt_top
  have h2 : Ideal.cmp .olt (max (x i) (-(x i))) (Ideal.ofBits .f32 0x7F800000#32) = 1#1 := h1
  rw [ofBits_inf] at h2
  have h3 : BitVec.ofBool (decide (max (x i) (-(x i)) < (⊤ : EReal))) = 1#1 := h2
  exact of_decide_eq_true ((ofBool_eq_one _).1 h3)

/-- The precondition read back: if the conjunction of the nine all(|x| < +∞) is 1, every entry of every
    argument array is a real number. -/
theorem real_of_fn [Cert.Pre_finite_inputs.Facts]
    (a0 : FVec Ideal S4x4096x512 .f32) (a1 : FVec Ideal S512x512 .f32) (a2 : FVec Ideal S512 .f32)
    (a3 : FVec Ideal S512x512 .f32) (a4 : FVec Ideal S512 .f32) (a5 : FVec Ideal S512x512 .f32)
    (a6 : FVec Ideal S512 .f32) (a7 : FVec Ideal S512x512 .f32) (a8 : FVec Ideal S512 .f32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ (∀ i, ∃ r : ℝ, a8 i = (r : EReal)) := by
  have h0 := congrFun h ValueIdx.ix0
  dsimp only [Cert.Pre_finite_inputs.fn, Cert.Pre_finite_inputs.fn_part1, Cert.Pre_finite_inputs.fn_part2, andi] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6, real_of_all a7 _ _ _ e7,
    real_of_all a8 _ _ _ e8⟩

/-- The certificate's precondition, on every device: every entry of every argument array is a real number. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : S4x4096x512.Idx, ∃ r : ℝ, m ((c.tc : Thread Cert.KernelIdeal.nD Cert.KernelIdeal.τ).loc Cert.KernelIdeal.main_arg0) i = (r : EReal))
    ∧ (∀ i : S512x512.Idx, ∃ r : ℝ, m ((c.tc : Thread Cert.KernelIdeal.nD Cert.KernelIdeal.τ).loc Cert.KernelIdeal.main_arg1) i = (r : EReal))
    ∧ (∀ i : S512.Idx, ∃ r : ℝ, m ((c.tc : Thread Cert.KernelIdeal.nD Cert.KernelIdeal.τ).loc Cert.KernelIdeal.main_arg2) i = (r : EReal))
    ∧ (∀ i : S512x512.Idx, ∃ r : ℝ, m ((c.tc : Thread Cert.KernelIdeal.nD Cert.KernelIdeal.τ).loc Cert.KernelIdeal.main_arg3) i = (r : EReal))
    ∧ (∀ i : S512.Idx, ∃ r : ℝ, m ((c.tc : Thread Cert.KernelIdeal.nD Cert.KernelIdeal.τ).loc Cert.KernelIdeal.main_arg4) i = (r : EReal))
    ∧ (∀ i : S512x512.Idx, ∃ r : ℝ, m ((c.tc : Thread Cert.KernelIdeal.nD Cert.KernelIdeal.τ).loc Cert.KernelIdeal.main_arg5) i = (r : EReal))
    ∧ (∀ i : S512.Idx, ∃ r : ℝ, m ((c.tc : Thread Cert.KernelIdeal.nD Cert.KernelIdeal.τ).loc Cert.KernelIdeal.main_arg6) i = (r : EReal))
    ∧ (∀ i : S512x512.Idx, ∃ r : ℝ, m ((c.tc : Thread Cert.KernelIdeal.nD Cert.KernelIdeal.τ).loc Cert.KernelIdeal.main_arg7) i = (r : EReal))
    ∧ (∀ i : S512.Idx, ∃ r : ℝ, m ((c.tc : Thread Cert.KernelIdeal.nD Cert.KernelIdeal.τ).loc Cert.KernelIdeal.main_arg8) i = (r : EReal)) :=
  real_of_fn _ _ _ _ _ _ _ _ _ (h c)

end Cert.Finite
-- ==== Proof.lean ====
/-
  Single-head attention without score scaling: a kernel that projects keys and values in one pass and then, per
  block of 512 queries, absorbs the 4096 keys of the batch in four chunks of 1024 into a running maximum, denominator
  and numerator, against a reference that forms the whole score matrix, takes its row-wise softmax and multiplies by
  the values.  Over the extended reals, on finite inputs, the two agree: every score and value is then a real number,
  the chunked recurrence ends at `∑ₖ exp (sₖ - M) vₖ` over `∑ₖ exp (sₖ - M)` for the final running maximum `M`, the
  reference at `∑ₖ (exp (sₖ - M') / ∑ⱼ exp (sⱼ - M')) vₖ` for the row maximum `M'`, and both equal
  `(∑ₖ exp sₖ · vₖ) / ∑ₖ exp sₖ` whatever the reference point.  Changes of float format are the identity, and a matrix
  product is the same sum of products in the kernel and on the host.

  The kernel's value is read off its run: the result array is its blocks, each block the body on the point's input
  blocks, the arrays the second kernel region finds the host operations' re-indexings of the arguments and of the
  first region's two projections.  The reference's value is its run read one operation at a time.
-/
import proofs.«116658_j4844723110037_2_alg».proof.Defs
import proofs.«116658_j4844723110037_2_alg».proof.Proof.Gen.Kernel
import proofs.«116658_j4844723110037_2_alg».proof.Proof.Gen.Kernel.Skeleton
import proofs.«116658_j4844723110037_2_alg».proof.Proof.Gen.Kernel.Launch
import proofs.«116658_j4844723110037_2_alg».proof.Proof.Gen.Kernel.Points
import proofs.«116658_j4844723110037_2_alg».proof.Proof.Gen.Kernel.Frame
import proofs.«116658_j4844723110037_2_alg».proof.Proof.Gen.KernelIdeal
import proofs.«116658_j4844723110037_2_alg».proof.Proof.Gen.KernelIdeal.Skeleton
import proofs.«116658_j4844723110037_2_alg».proof.Proof.Gen.KernelIdeal.Launch
import proofs.«116658_j4844723110037_2_alg».proof.Proof.Gen.KernelIdeal.Points
import proofs.«116658_j4844723110037_2_alg».proof.Proof.Gen.KernelIdeal.Frame
import proofs.«116658_j4844723110037_2_alg».proof.Proof.Gen.ReferenceIdeal
import proofs.«116658_j4844723110037_2_alg».proof.Proof.Gen.Pre_finite_inputs
import proofs.«116658_j4844723110037_2_alg».proof.Proof.Gen.ReferenceIdeal.Run
import proofs.«116658_j4844723110037_2_alg».proof.Proof.Gen.ReferenceIdeal.Read
import proofs.«116658_j4844723110037_2_alg».proof.Proof.KernelValue
import proofs.«116658_j4844723110037_2_alg».proof.Proof.RefValue
import proofs.«116658_j4844723110037_2_alg».proof.Proof.Softmax
import proofs.«116658_j4844723110037_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the attention function `G` of the arguments: the kernel at its chunked spelling, which is `G`
    on finite inputs; the reference at `G` itself. -/
theorem algebraic : Cert.algebraic_KernelIdeal_ReferenceIdeal := by
  intro m ρ m' ρ' hpre hagree
  refine ⟨fun c => Cert.Attention.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩)
      (Cert.KernelIdeal.Value.run m ρ)
    obtain ⟨r0, r1, r2, r3, r4, r5, r6, -, -⟩ := Cert.Finite.real_of_pre m hpre c
    exact Cert.Attention.Gonline_eq_G r0 r1 r2 r3 r4 r5 r6
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v28_eq, Cert.RefValue.ref_eq_G, (hagree c).1, (hagree c).2.1, (hagree c).2.2.1,
      (hagree c).2.2.2.1, (hagree c).2.2.2.2.1, (hagree c).2.2.2.2.2.1, (hagree c).2.2.2.2.2.2.1,
      (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
